-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x1024 .f32) (main_arg1 : FVec F S2048x1024 .f32) (main_arg2 : FVec F S2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2048x1024 : Shape := ⟨2, ![2048, 1024]⟩
abbrev S1024x1024 : Shape := ⟨2, ![1024, 1024]⟩
abbrev S1024 : Shape := ⟨1, ![1024]⟩
abbrev S16x2048x64 : Shape := ⟨3, ![16, 2048, 64]⟩
abbrev S512x1024 : Shape := ⟨2, ![512, 1024]⟩
abbrev S16x512x64 : Shape := ⟨3, ![16, 512, 64]⟩
abbrev S1x1024 : Shape := ⟨2, ![1, 1024]⟩
abbrev S512x16x64 : Shape := ⟨3, ![512, 16, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 34
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S16x2048x64, .bf16⟩
  | .hbm, ⟨12, _⟩ => ⟨S16x2048x64, .bf16⟩
  | .hbm, ⟨13, _⟩ => ⟨S16x2048x64, .bf16⟩
  | .hbm, ⟨14, _⟩ => ⟨S16x2048x2048, .f32⟩
  | .hbm, ⟨15, _⟩ => ⟨S16x2048x64, .bf16⟩
  | .hbm, ⟨16, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024, .f32⟩
  | .local _ .vmem, ⟨4, _⟩ => ⟨S16x512x64, .bf16⟩
  | .local _ .vmem, ⟨5, _⟩ => ⟨S16x512x64, .bf16⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1024, .f32⟩
  | .local _ .vmem, ⟨10, _⟩ => ⟨S16x512x64, .bf16⟩
  | .local _ .vmem, ⟨11, _⟩ => ⟨S16x512x64, .bf16⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1024, .f32⟩
  | .local _ .vmem, ⟨16, _⟩ => ⟨S16x512x64, .bf16⟩
  | .local _ .vmem, ⟨17, _⟩ => ⟨S16x512x64, .bf16⟩
  | .local _ .vmem, ⟨18, _⟩ => ⟨S1x512x64, .bf16⟩
  | .local _ .vmem, ⟨19, _⟩ => ⟨S1x512x64, .bf16⟩
  | .local _ .vmem, ⟨20, _⟩ => ⟨S1x2048x64, .bf16⟩
  | .local _ .vmem, ⟨21, _⟩ => ⟨S1x2048x64, .bf16⟩
  | .local _ .vmem, ⟨22, _⟩ => ⟨S1x2048x64, .bf16⟩
  | .local _ .vmem, ⟨23, _⟩ => ⟨S1x2048x64, .bf16⟩
  | .local _ .vmem, ⟨24, _⟩ => ⟨S1x512x2048, .f32⟩
  | .local _ .vmem, ⟨25, _⟩ => ⟨S1x512x2048, .f32⟩
  | .local _ .vmem, ⟨26, _⟩ => ⟨S1x512x64, .bf16⟩
  | .local _ .vmem, ⟨27, _⟩ => ⟨S1x512x64, .bf16⟩
  | .local _ .vmem, ⟨28, _⟩ => ⟨S16x512x64, .bf16⟩
  | .local _ .vmem, ⟨29, _⟩ => ⟨S16x512x64, .bf16⟩
  | .local _ .vmem, ⟨30, _⟩ => ⟨S1024x1024, .f32⟩
  | .local _ .vmem, ⟨31, _⟩ => ⟨S1024, .f32⟩
  | .local _ .vmem, ⟨32, _⟩ => ⟨S512x1024, .f32⟩
  | .local _ .vmem, ⟨33, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S16x512x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![16, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x512x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16x512x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S512x16x64 : S512x1024.ShapeCasts S512x16x64
  transposes_S512x16x64_p1_0_2_S16x512x64 : S512x16x64.Transposes [1, 0, 2] S16x512x64
  inb_S16x512x64_S16x512x64_0_0_0 : ∀ a, (![0, 0, 0] : Fin 3 → Nat) a + S16x512x64.size a ≤ S16x512x64.size a
  h_S16x512x64 : 0 < S16x512x64.numel
  packedbf16_S16x512x64_S16x512x64_0_0_0 : (Rect.unit (s := S16x512x64) ![0, 0, 0] S16x512x64.size inb_S16x512x64_S16x512x64_0_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S16x512x64_S16x512x64 : S16x512x64.ShapeCasts S16x512x64
  transposes_S16x512x64_p1_0_2_S512x16x64 : S16x512x64.Transposes [1, 0, 2] S512x16x64
  shapeCasts_S512x16x64_S512x1024 : S512x16x64.ShapeCasts S512x1024
  dot_S512x1024_S1024x1024_S512x1024_1_0_0_1_n_n_wf : DotDims.WF S512x1024 S1024x1024 S512x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512x64.size a ≤ S16x2048x64.size a
  hwx0_3 : ∀ i : grid0.Coords, EltTy.bits .bf16 = 32 ∨ (Rect.block (s := S16x2048x64) S16x512x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x1024.size a
  hwx1_0 : ∀ i : grid1.Coords, EltTy.bits .f32 = 32 ∨ (Rect.block (s := S2048x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x512x64.size a ≤ S16x2048x64.size a
  hwx1_3 : ∀ i : grid1.Coords, EltTy.bits .bf16 = 32 ∨ (Rect.block (s := S16x2048x64) S16x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x1024.size a
  hwx2_0 : ∀ i : grid2.Coords, EltTy.bits .f32 = 32 ∨ (Rect.block (s := S2048x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16x512x64.size a ≤ S16x2048x64.size a
  hwx2_3 : ∀ i : grid2.Coords, EltTy.bits .bf16 = 32 ∨ (Rect.block (s := S16x2048x64) S16x512x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S16x2048x64.size a
  hwx3_0 : ∀ i : grid3.Coords, EltTy.bits .bf16 = 32 ∨ (Rect.block (s := S16x2048x64) S1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x64.size a ≤ S16x2048x64.size a
  hwx3_1 : ∀ i : grid3.Coords, EltTy.bits .bf16 = 32 ∨ (Rect.block (s := S16x2048x64) S1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x64.size a ≤ S16x2048x64.size a
  hwx3_2 : ∀ i : grid3.Coords, EltTy.bits .bf16 = 32 ∨ (Rect.block (s := S16x2048x64) S1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x2048.size a ≤ S16x2048x2048.size a
  hwx3_3 : ∀ i : grid3.Coords, EltTy.bits .f32 = 32 ∨ (Rect.block (s := S16x2048x2048) S1x512x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x512x64.size a ≤ S16x2048x64.size a
  hwx3_4 : ∀ i : grid3.Coords, EltTy.bits .bf16 = 32 ∨ (Rect.block (s := S16x2048x64) S1x512x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16x512x64.size a ≤ S16x2048x64.size a
  hwx4_0 : ∀ i : grid4.Coords, EltTy.bits .bf16 = 32 ∨ (Rect.block (s := S16x2048x64) S16x512x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S1024.size a
  hwx4_2 : ∀ i : grid4.Coords, EltTy.bits .f32 = 32 ∨ (Rect.block (s := S1024) S1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S2048x1024.size a
  hwx4_3 : ∀ i : grid4.Coords, EltTy.bits .f32 = 32 ∨ (Rect.block (s := S2048x1024) S512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S16x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S16x512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v0) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3_0) S1x512x2048.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v3_1) S1x512x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v3_1) S16x512x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S2048x16x64 : Shape := ⟨3, ![2048, 16, 64]⟩
abbrev S16x2048x64 : Shape := ⟨3, ![16, 2048, 64]⟩
abbrev S_ : Shape := ⟨0, ![]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2048x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x16x64, .f32⟩
  | .hbm, ⟨16, _⟩ => ⟨S16x2048x64, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x16x64, .f32⟩
  | .hbm, ⟨22, _⟩ => ⟨S16x2048x64, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x16x64, .f32⟩
  | .hbm, ⟨28, _⟩ => ⟨S16x2048x64, .f32⟩
  | .hbm, ⟨29, _⟩ => ⟨S_, .f32⟩
  | .hbm, ⟨30, _⟩ => ⟨S16x2048x64, .f32⟩
  | .hbm, ⟨31, _⟩ => ⟨S16x2048x64, .f32⟩
  | .hbm, ⟨32, _⟩ => ⟨S16x2048x2048, .f32⟩
  | .hbm, ⟨33, _⟩ => ⟨S_, .f32⟩
  | .hbm, ⟨34, _⟩ => ⟨S16x2048, .f32⟩
  | .hbm, ⟨35, _⟩ => ⟨S_, .f32⟩
  | .hbm, ⟨36, _⟩ => ⟨S16x2048, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S16x2048x2048, .f32⟩
  | .hbm, ⟨46, _⟩ => ⟨S16x2048x2048, .f32⟩
  | .hbm, ⟨47, _⟩ => ⟨S16x2048x64, .f32⟩
  | .hbm, ⟨48, _⟩ => ⟨S2048x16x64, .f32⟩
  | .hbm, ⟨49, _⟩ => ⟨S2048x1024, .f32⟩
  | .hbm, ⟨50, _⟩ => ⟨S2048x1024, .f32⟩
  | .hbm, ⟨51, _⟩ => ⟨S1x1024, .f32⟩
  | .hbm, ⟨52, _⟩ => ⟨S2048x1024, .f32⟩
  | .hbm, ⟨53, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  shapeCasts_S2048x1024_S2048x16x64 : S2048x1024.ShapeCasts S2048x16x64
  transposes_S2048x16x64_S16x2048x64_1_0_2 : S2048x16x64.Transposes [1, 0, 2] S16x2048x64
  bcast_S_S16x2048x64 : S_.BroadcastsInDim S16x2048x64 (![] : Fin 0 → Fin S16x2048x64.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  dot_S2048x1024_S1024x1024_S2048x1024_1_0_0_1_n_n_wf : DotDims.WF S2048x1024 S1024x1024 S2048x1024 [1] [0] [0] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.KernelRun.lean ====
/-
  The idealized kernel's run with its two RESULT arrays named.  @main is five kernel launches and nothing else, so
  the memory after the run is the launch memory folded through the five launches: each launch leaves its argument
  arrays as it found them and its output arrays at what its write-backs leave.  Every weakly fair execution
  terminates, without a fault, with the output of the last launch and the probability array of the fourth at that
  fold's contents, and the eleven arguments as launched.
-/
import proofs.«120498_j67860483277320_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the two results at the last boundary's contents, the arguments as launched. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_v3_0) = W5 m ρ c (Proc.devRef .tc main_v3_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       h c _ (mem_uc main_v3_0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Run

end
-- ==== Proof.Spec.lean ====
/-
  Multi-head attention over 2048 tokens, model width 1024, sixteen heads of sixty-four lanes, as ONE function of the
  eleven argument arrays on the extended reals.  A head-major projection sends token n to
  proj(h, n, d) = Σ_k x(n, k) · w(k, 64h + d) + b(64h + d).  From the projected queries Q and keys K the score of
  token n against token m in head h is (Σ_d Q(h, n, d) · K(h, m, d)) · 1/8; a row of scores is turned into
  probabilities by subtracting the row's maximum, exponentiating, and dividing by the row's sum; the context is
  Σ_m attn(h, n, m) · V(h, m, d); the output puts head h, lane d back in column 64h + d and applies the last
  affine map.  Also here: the one algebraic law the two programs differ by — scaling every query lane by 1/8 before
  the contraction is scaling the contracted sum by 1/8, on every extended real, because multiplication by a
  nonnegative finite constant distributes over extended-real addition.
-/
import Idealize.ShloMosaic.PureOps.Ideal
import Idealize.ShloMosaic.Lib.ValueIdx

noncomputable section

namespace Cert.Mha

open Idealize.ShloMosaic Idealize.ShloMosaic.ValueIdx

abbrev SX : Shape := ⟨2, ![2048, 1024]⟩
abbrev SW : Shape := ⟨2, ![1024, 1024]⟩
abbrev SB : Shape := ⟨1, ![1024]⟩
abbrev SH : Shape := ⟨3, ![16, 2048, 64]⟩
abbrev SA : Shape := ⟨3, ![16, 2048, 2048]⟩

/-- The model column that holds lane `d` of head `h`. -/
def col (h : Fin 16) (d : Fin 64) : Fin 1024 := ⟨64 * h.val + d.val, by omega⟩

/-- The head and the lane of a model column. -/
def headOf (k : Fin 1024) : Fin 16 := ⟨k.val / 64, by omega⟩
def laneOf (k : Fin 1024) : Fin 64 := ⟨k.val % 64, by omega⟩

theorem col_headOf_laneOf (k : Fin 1024) : col (headOf k) (laneOf k) = k :=
  Fin.ext (by show 64 * (k.val / 64) + k.val % 64 = k.val; omega)

/-- One entry of a head-major projection: row `n` of `x` against column `col h d` of `w`, plus the bias there. -/
def projAt (x : SX.Idx → EReal) (w : SW.Idx → EReal) (b : SB.Idx → EReal) (h : Fin 16) (n : Fin 2048) (d : Fin 64) : EReal :=
  (∑ k : Fin 1024, x (ix2 n k) * w (ix2 k (col h d))) + b (ix1 (col h d))

def proj (x : SX.Idx → EReal) (w : SW.Idx → EReal) (b : SB.Idx → EReal) : SH.Idx → EReal :=
  fun i => projAt x w b (i 0) (i 1) (i 2)

/-- Minus infinity, as the f32 word both programs spell it. -/
abbrev negInf : EReal := Ideal.ofBits .f32 0xFF800000#32

/-- The reciprocal temperature, one eighth. -/
abbrev eighth : EReal := ((1 / 8 : ℝ) : EReal)

/-- The scaled score of query token `n` against key token `m` in head `h`. -/
def scoreAt (Q K : SH.Idx → EReal) (h : Fin 16) (n m : Fin 2048) : EReal :=
  (∑ d : Fin 64, Q (ix3 h n d) * K (ix3 h m d)) * eighth

/-- The largest score of a row (from minus infinity). -/
def rowMax (Q K : SH.Idx → EReal) (h : Fin 16) (n : Fin 2048) : EReal :=
  (Finset.univ : Finset (Fin 2048)).fold max negInf (fun m => scoreAt Q K h n m)

def expAt (Q K : SH.Idx → EReal) (h : Fin 16) (n m : Fin 2048) : EReal :=
  Ideal.exp (scoreAt Q K h n m - rowMax Q K h n)

def rowSum (Q K : SH.Idx → EReal) (h : Fin 16) (n : Fin 2048) : EReal :=
  ∑ m : Fin 2048, expAt Q K h n m

/-- The attention probability of token `m` for token `n` in head `h`. -/
def attnAt (Q K : SH.Idx → EReal) (h : Fin 16) (n m : Fin 2048) : EReal :=
  Ideal.div (expAt Q K h n m) (rowSum Q K h n)

def attn (Q K : SH.Idx → EReal) : SA.Idx → EReal :=
  fun i => attnAt Q K (i 0) (i 1) (i 2)

/-- The context: the values averaged by the attention probabilities. -/
def ctxAt (Q K V : SH.Idx → EReal) (h : Fin 16) (n : Fin 2048) (d : Fin 64) : EReal :=
  ∑ m : Fin 2048, attnAt Q K h n m * V (ix3 h m d)

def ctx (Q K V : SH.Idx → EReal) : SH.Idx → EReal :=
  fun i => ctxAt Q K V (i 0) (i 1) (i 2)

/-- The last affine map, its contraction running over the merged (head, lane) columns. -/
def outAt (X : SH.Idx → EReal) (w : SW.Idx → EReal) (b : SB.Idx → EReal) (n : Fin 2048) (j : Fin 1024) : EReal :=
  (∑ k : Fin 1024, X (ix3 (headOf k) n (laneOf k)) * w (ix2 k j)) + b (ix1 j)

def out (X : SH.Idx → EReal) (w : SW.Idx → EReal) (b : SB.Idx → EReal) : SX.Idx → EReal :=
  fun i => outAt X w b (i 0) (i 1)

/-! ## Scaling before or after the contraction -/

/-- A finite nonnegative constant moves out of a finite sum of extended reals. -/
theorem sum_mul_const {ι : Type*} (s : Finset ι) (f : ι → EReal) {c : EReal} (h0 : 0 ≤ c) (ht : c ≠ ⊤) :
    (∑ i ∈ s, f i * c) = (∑ i ∈ s, f i) * c := by
  classical
  induction s using Finset.induction_on with
  | empty => simp
  | insert a s ha ih =>
    rw [Finset.sum_insert ha, Finset.sum_insert ha, ih, EReal.right_distrib_of_nonneg_of_ne_top h0 ht]

theorem eighth_nonneg : (0 : EReal) ≤ eighth := by
  show ((0 : ℝ) : EReal) ≤ ((1 / 8 : ℝ) : EReal)
  exact EReal.coe_le_coe_iff.mpr (by norm_num)

theorem eighth_ne_top : eighth ≠ ⊤ := EReal.coe_ne_top _

/-- Dividing every query lane by eight before the contraction gives the scaled score. -/
theorem score_of_scaled_lanes (q k : Fin 64 → EReal) :
    (∑ d : Fin 64, (q d * eighth) * k d) = (∑ d : Fin 64, q d * k d) * eighth := by
  rw [← sum_mul_const _ _ eighth_nonneg eighth_ne_top]
  exact Finset.sum_congr rfl fun d _ => by rw [mul_assoc, mul_comm eighth, ← mul_assoc]

end Cert.Mha

end
-- ==== Proof.Chain.lean ====
/-
  The memory after the five launches, followed through the fold.  The first three launches leave the head-major
  projections of (query, Wq, bq), (key, Wk, bk) and (value, Wv, bv); no later launch writes them, so the attention
  launch finds them in place and leaves the probability array and the context array of those three; the last launch
  finds the context array and the last weight and bias as launched and leaves the output.  Each launch writes only its
  own output arrays, so every array read later is found as it was left.
-/
import proofs.«120498_j67860483277320_2_alg».proof.Proof.Gen.KernelIdeal.Frame
import proofs.«120498_j67860483277320_2_alg».proof.Proof.Spec

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What each launch leaves in its output arrays, as a function of the contents it is entered with. -/
structure Launches : Prop where
  proj0 : ∀ (V : (c : Dev nD) → (b : Ref sig .tc) → Buf (Elt Ideal) ((c : Thread nD τ).loc b)) (c : Dev nD),
    (dat0 (F := Ideal) V c).arrAt 3 cfg0.N = Cert.Mha.proj (V c main_arg0) (V c main_arg3) (V c main_arg4)
  proj1 : ∀ (V : (c : Dev nD) → (b : Ref sig .tc) → Buf (Elt Ideal) ((c : Thread nD τ).loc b)) (c : Dev nD),
    (dat1 (F := Ideal) V c).arrAt 3 cfg1.N = Cert.Mha.proj (V c main_arg1) (V c main_arg5) (V c main_arg6)
  proj2 : ∀ (V : (c : Dev nD) → (b : Ref sig .tc) → Buf (Elt Ideal) ((c : Thread nD τ).loc b)) (c : Dev nD),
    (dat2 (F := Ideal) V c).arrAt 3 cfg2.N = Cert.Mha.proj (V c main_arg2) (V c main_arg7) (V c main_arg8)
  attn3 : ∀ (V : (c : Dev nD) → (b : Ref sig .tc) → Buf (Elt Ideal) ((c : Thread nD τ).loc b)) (c : Dev nD),
    (dat3 (F := Ideal) V c).arrAt 3 cfg3.N = Cert.Mha.attn (V c main_v0) (V c main_v1)
  ctx3 : ∀ (V : (c : Dev nD) → (b : Ref sig .tc) → Buf (Elt Ideal) ((c : Thread nD τ).loc b)) (c : Dev nD),
    (dat3 (F := Ideal) V c).arrAt 4 cfg3.N = Cert.Mha.ctx (V c main_v0) (V c main_v1) (V c main_v2)
  out4 : ∀ (V : (c : Dev nD) → (b : Ref sig .tc) → Buf (Elt Ideal) ((c : Thread nD τ).loc b)) (c : Dev nD),
    (dat4 (F := Ideal) V c).arrAt 3 cfg4.N = Cert.Mha.out (V c main_v3_1) (V c main_arg9) (V c main_arg10)

variable (L : Launches)

/-- The three projections of the argument arrays. -/
abbrev Qm (c : Dev nD) : Cert.Mha.SH.Idx → EReal :=
  Cert.Mha.proj (m ((c : Thread nD τ).loc main_arg0)) (m ((c : Thread nD τ).loc main_arg3)) (m ((c : Thread nD τ).loc main_arg4))
abbrev Km (c : Dev nD) : Cert.Mha.SH.Idx → EReal :=
  Cert.Mha.proj (m ((c : Thread nD τ).loc main_arg1)) (m ((c : Thread nD τ).loc main_arg5)) (m ((c : Thread nD τ).loc main_arg6))
abbrev Vm (c : Dev nD) : Cert.Mha.SH.Idx → EReal :=
  Cert.Mha.proj (m ((c : Thread nD τ).loc main_arg2)) (m ((c : Thread nD τ).loc main_arg7)) (m ((c : Thread nD τ).loc main_arg8))

include L

/-- After the first launch the query projection is in place. -/
theorem q_at1 (c : Dev nD) : W1 m ρ c (Proc.devRef .tc main_v0) = Qm m c :=
  (W1_arr m ρ c 3).trans (L.proj0 (V0 m ρ) c)

/-- After the second launch the key projection is in place (its arguments were not touched by the first). -/
theorem k_at2 (c : Dev nD) : W2 m ρ c (Proc.devRef .tc main_v1) = Km m c := by
  refine (W2_arr m ρ c 3).trans ((L.proj1 (V1 m ρ) c).trans ?_)
  show Cert.Mha.proj (W1 m ρ c (Proc.devRef .tc main_arg1)) (W1 m ρ c (Proc.devRef .tc main_arg5)) (W1 m ρ c (Proc.devRef .tc main_arg6)) = _
  rw [W1_of_ne m ρ c main_arg1 (by decide), W1_of_ne m ρ c main_arg5 (by decide), W1_of_ne m ρ c main_arg6 (by decide)]

/-- After the third launch the value projection is in place. -/
theorem v_at3 (c : Dev nD) : W3 m ρ c (Proc.devRef .tc main_v2) = Vm m c := by
  refine (W3_arr m ρ c 3).trans ((L.proj2 (V2 m ρ) c).trans ?_)
  show Cert.Mha.proj (W2 m ρ c (Proc.devRef .tc main_arg2)) (W2 m ρ c (Proc.devRef .tc main_arg7)) (W2 m ρ c (Proc.devRef .tc main_arg8)) = _
  rw [W2_of_ne m ρ c main_arg2 (by decide), W2_of_ne m ρ c main_arg7 (by decide), W2_of_ne m ρ c main_arg8 (by decide),
    W1_of_ne m ρ c main_arg2 (by decide), W1_of_ne m ρ c main_arg7 (by decide), W1_of_ne m ρ c main_arg8 (by decide)]

/-- The attention launch finds the three projections as they were left. -/
theorem q_at3 (c : Dev nD) : W3 m ρ c (Proc.devRef .tc main_v0) = Qm m c := by
  rw [W3_of_ne m ρ c main_v0 (by decide), W2_of_ne m ρ c main_v0 (by decide)]
  exact q_at1 m ρ L c

theorem k_at3 (c : Dev nD) : W3 m ρ c (Proc.devRef .tc main_v1) = Km m c := by
  rw [W3_of_ne m ρ c main_v1 (by decide)]
  exact k_at2 m ρ L c

/-- The probability array after the attention launch. -/
theorem attn_at4 (c : Dev nD) : W4 m ρ c (Proc.devRef .tc main_v3_0) = Cert.Mha.attn (Qm m c) (Km m c) := by
  refine (W4_arr m ρ c 3).trans ((L.attn3 (V3 m ρ) c).trans ?_)
  show Cert.Mha.attn (W3 m ρ c (Proc.devRef .tc main_v0)) (W3 m ρ c (Proc.devRef .tc main_v1)) = _
  rw [q_at3 m ρ L c, k_at3 m ρ L c]

/-- The context array after the attention launch. -/
theorem ctx_at4 (c : Dev nD) : W4 m ρ c (Proc.devRef .tc main_v3_1) = Cert.Mha.ctx (Qm m c) (Km m c) (Vm m c) := by
  refine (W4_arr m ρ c 4).trans ((L.ctx3 (V3 m ρ) c).trans ?_)
  show Cert.Mha.ctx (W3 m ρ c (Proc.devRef .tc main_v0)) (W3 m ρ c (Proc.devRef .tc main_v1)) (W3 m ρ c (Proc.devRef .tc main_v2)) = _
  rw [q_at3 m ρ L c, k_at3 m ρ L c, v_at3 m ρ L c]

/-- THE OUTPUT after the last launch. -/
theorem out_at5 (c : Dev nD) : W5 m ρ c (Proc.devRef .tc main_v4)
    = Cert.Mha.out (Cert.Mha.ctx (Qm m c) (Km m c) (Vm m c)) (m ((c : Thread nD τ).loc main_arg9)) (m ((c : Thread nD τ).loc main_arg10)) := by
  refine (W5_arr m ρ c 3).trans ((L.out4 (V4 m ρ) c).trans ?_)
  show Cert.Mha.out (W4 m ρ c (Proc.devRef .tc main_v3_1)) (W4 m ρ c (Proc.devRef .tc main_arg9)) (W4 m ρ c (Proc.devRef .tc main_arg10)) = _
  rw [ctx_at4 m ρ L c,
    W4_of_ne m ρ c main_arg9 (by decide), W3_of_ne m ρ c main_arg9 (by decide), W2_of_ne m ρ c main_arg9 (by decide), W1_of_ne m ρ c main_arg9 (by decide),
    W4_of_ne m ρ c main_arg10 (by decide), W3_of_ne m ρ c main_arg10 (by decide), W2_of_ne m ρ c main_arg10 (by decide), W1_of_ne m ρ c main_arg10 (by decide)]

/-- THE PROBABILITY ARRAY after the last launch: the last launch does not write it. -/
theorem attn_at5 (c : Dev nD) : W5 m ρ c (Proc.devRef .tc main_v3_0) = Cert.Mha.attn (Qm m c) (Km m c) := by
  rw [W5_of_ne m ρ c main_v3_0 (by decide)]
  exact attn_at4 m ρ L c

end Cert.KernelIdeal.Chain

end
-- ==== Proof.ProjBlock.lean ====
/-
  One block of a head-major projection, read entry by entry.  The body multiplies a block of 512 token rows by the
  whole 1024 x 1024 weight into a zero accumulator, adds the bias (one row, repeated over the 512 rows), views each
  row of 1024 columns as 16 heads of 64 lanes, and swaps the row and head axes.  So the entry at (head h, row r,
  lane d) of what it stores is  sum over k of x(r, k) * w(k, 64h + d), plus b(64h + d): the column 64h + d is where
  the row-major position of (r, h, d) in [512, 16, 64] lands in [512, 1024].
-/
import proofs.«120498_j67860483277320_2_alg».proof.Proof.Gen.KernelIdeal.Skeleton
import proofs.«120498_j67860483277320_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.ProjValue

open Cert.KernelIdeal Cert.KernelIdeal.Gen Idealize.ShloMosaic Idealize.ShloMosaic.ValueIdx
open Cert.Mha (col)

/-- Swapping the first two of three axes: the entry at (h, r, d) is the operand's at (r, h, d). -/
theorem transpose_hrd (x : FVec Ideal S512x16x64 .f32) (hT : S512x16x64.Transposes [1, 0, 2] S16x512x64)
    (h : Fin 16) (r : Fin 512) (d : Fin 64) :
    transpose S16x512x64 [1, 0, 2] x hT (ix3 h r d) = x (ix3 r h d) :=
  transpose_apply _ x hT _ _ fun c => match c with | ⟨0, _⟩ => rfl | ⟨1, _⟩ => rfl | ⟨2, _⟩ => rfl

/-- A row of 1024 columns viewed as 16 heads of 64 lanes: (r, h, d) is column 64h + d of row r. -/
theorem split_heads (x : FVec Ideal S512x1024 .f32) (hC : S512x1024.ShapeCasts S512x16x64)
    (r : Fin 512) (h : Fin 16) (d : Fin 64) :
    shapeCast S512x16x64 x hC (ix3 r h d) = x (ix2 r (col h d)) :=
  shapeCast_apply x hC _ _ (by
    rw [Shape.rowMajor_val_two, Shape.rowMajor_val_three]
    show r.val * 1024 + (64 * h.val + d.val) = (r.val * 16 + h.val) * 64 + d.val
    omega)

/-- The bias, as one row repeated over every row of the block. -/
theorem bias_row (b : FVec Ideal S1024 .f32) (hC : S1024.ShapeCasts S1x1024) (hB : S1x1024.Broadcasts S512x1024)
    (r : Fin 512) (c : Fin 1024) :
    broadcastTo S512x1024 (shapeCast S1x1024 b hC) hB (ix2 r c) = b (ix1 c) :=
  (broadcastTo_1b_ab_apply _ hB r c).trans (shapeCast_a_1a_apply b hC 0 c)

/-- The product's left operand is read at the output's row and the contraction coordinate … -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem lhs_contr (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- … and its right operand at the contraction coordinate and the output's column. -/
theorem rhs_contr (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The product into a zero accumulator: entry (r, c) is the sum over k of x(r, k) * w(k, c). -/
theorem matmul_rc (x : FVec Ideal S512x1024 .bf16) (w : FVec Ideal S1024x1024 .bf16) (r : Fin 512) (c : Fin 1024) :
    matmul dot_S512x1024_S1024x1024_S512x1024_1_0_0_1_n_n none x w (constant (F := Ideal) S512x1024 .f32 0x00000000#32) (ix2 r c)
      = ∑ k : Fin 1024, x (ix2 r k) * w (ix2 k c) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c)
      ((contrEquiv1 dot_S512x1024_S1024x1024_S512x1024_1_0_0_1_n_n 1024 rfl rfl).symm k) = ix2 r k :=
    funext fun a => Fin.ext (by
      match a with
      | ⟨0, _⟩ => exact lhs_row _ _
      | ⟨1, _⟩ => exact (lhs_contr _ _).trans hk)
  have er : dot_S512x1024_S1024x1024_S512x1024_1_0_0_1_n_n.rhsIdx (ix2 r c)
      ((contrEquiv1 dot_S512x1024_S1024x1024_S512x1024_1_0_0_1_n_n 1024 rfl rfl).symm k) = ix2 k c :=
    funext fun a => Fin.ext (by
      match a with
      | ⟨0, _⟩ => exact (rhs_contr _ _).trans hk
      | ⟨1, _⟩ => exact rhs_col _ _)
  rw [el, er]

/-- What a projection body stores, entry by entry: the block's row r against column 64h + d of the weight, plus the
    bias there. -/
theorem pay_apply (x : Vec Ideal S512x1024 .f32) (w : Vec Ideal S1024x1024 .f32) (b : Vec Ideal S1024 .f32)
    (h : Fin 16) (r : Fin 512) (d : Fin 64) :
    k0_pay1 (F := Ideal) x w b (ix3 h r d)
      = (∑ k : Fin 1024, x (ix2 r k) * w (ix2 k (col h d))) + b (ix1 (col h d)) := by
  unfold k0_pay1
  refine (truncf_apply (ψ := FTy.bf16) (φ := FTy.f32) _ bitsLt_bf16_f32 (ix3 h r d)).trans ?_
  refine (transpose_hrd _ _ h r d).trans ?_
  refine (split_heads _ _ r h d).trans ?_
  refine (addf_apply _ _ _).trans ?_
  refine congrArg₂ (· + ·) ?_ ?_
  · exact matmul_rc _ _ r (col h d)
  · exact bias_row _ _ _ r (col h d)

/-- The three projection bodies are one text. -/
theorem k1_pay1_eq : k1_pay1 (F := Ideal) = k0_pay1 (F := Ideal) := rfl
theorem k2_pay1_eq : k2_pay1 (F := Ideal) = k0_pay1 (F := Ideal) := rfl

/-- Zero offsets, however many axes. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The block of 512 rows that starts at row 512 n: when the body's first operand is those rows of the token array
    and the other two are the whole weight and bias, the entry it stores at block-local (h, r, d) is the projection's
    entry at (h, 512 n + r, d). -/
theorem block_proj (X : Cert.Mha.SX.Idx → EReal) (W : Cert.Mha.SW.Idx → EReal) (B : Cert.Mha.SB.Idx → EReal)
    (x : Vec Ideal S512x1024 .f32) (w : Vec Ideal S1024x1024 .f32) (b : Vec Ideal S1024 .f32) (n : ℕ)
    (hx : ∀ (r : Fin 512) (k : Fin 1024) (q : Fin 2048), q.val = 512 * n + r.val → x (ix2 r k) = X (ix2 q k))
    (hw : ∀ k c : Fin 1024, w (ix2 k c) = W (ix2 k c)) (hb : ∀ c : Fin 1024, b (ix1 c) = B (ix1 c))
    (y : S16x512x64.Idx) (i : Cert.Mha.SH.Idx)
    (h0 : (i 0).val = (y 0).val) (h1 : (i 1).val = 512 * n + (y 1).val) (h2 : (i 2).val = (y 2).val) :
    k0_pay1 (F := Ideal) x w b y = Cert.Mha.proj X W B i := by
  obtain ⟨h, r, d, rfl⟩ : ∃ (h : Fin 16) (r : Fin 512) (d : Fin 64), y = ix3 h r d := ⟨y 0, y 1, y 2, eq_ix3 y⟩
  obtain ⟨h', q, d', rfl⟩ : ∃ (h' : Fin 16) (q : Fin 2048) (d' : Fin 64), i = ix3 h' q d' := ⟨i 0, i 1, i 2, eq_ix3 i⟩
  have e0 : h' = h := Fin.ext h0
  have e2 : d' = d := Fin.ext h2
  subst e0 e2
  rw [pay_apply]
  show _ = Cert.Mha.projAt X W B h' q d'
  unfold Cert.Mha.projAt
  rw [hb]
  exact congrArg (· + B (ix1 (col h' d'))) (Finset.sum_congr rfl fun k _ => by rw [hx r k q h1, hw])

end Cert.KernelIdeal.ProjValue

end
-- ==== Proof.ProjArr0.lean ====
/-
  The array a head-major projection leaves behind.  The grid has four points; point t reads rows 512 t … 512 t + 511
  of the token array and the whole weight and bias, and writes back rows 512 t … 512 t + 511 of every head.  Each
  written block is that block of the projection of the three arrays as the region finds them, and the four blocks
  tile the [16, 2048, 64] array (row n belongs to point n / 512), so the array ends holding the projection.
-/
import proofs.«120498_j67860483277320_2_alg».proof.Proof.Gen.KernelIdeal.Frame
import proofs.«120498_j67860483277320_2_alg».proof.Proof.ProjBlock
import Idealize.ShloMosaic.Lib.Pipeline.Value
import Idealize.ShloMosaic.Lib.Tactic

noncomputable section

namespace Cert.KernelIdeal.ProjValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at point t: the token block and the output block move with t along the row axis; the weight
    and the bias stay whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = t.val ∧ win0_3.index t (2 : Fin 3) = 0 :=
  (by decide +kernel : ∀ t : Fin grid0.N, _)

/-- The token block at point t is rows 512 t … of the token array. -/
theorem tokens0_apply (c : Dev nD) (t : Fin cfg0.N) (r : Fin 512) (k : Fin 1024) (q : Fin 2048)
    (hq : q.val = 512 * t.val + r.val) :
    (iblk0 V c 0 t : Vec Ideal S512x1024 .f32) (ix2 r k) = (V c main_arg0 : Cert.Mha.SX.Idx → EReal) (ix2 q k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 512 + 1 * r.val = q.val; rw [e0, hq]; omega
  | ⟨1, _⟩ => show win0_0.index t (1 : Fin 2) * 1024 + 1 * k.val = k.val; rw [e1]; omega

/-- The weight block at every point is the weight. -/
theorem weight0_apply (c : Dev nD) (t : Fin cfg0.N) (k j : Fin 1024) :
    (iblk0 V c 1 t : Vec Ideal S1024x1024 .f32) (ix2 k j) = (V c main_arg3 : Cert.Mha.SW.Idx → EReal) (ix2 k j) := by
  obtain ⟨-, -, e0, e1, -⟩ := idx_facts0 t
  unfold iblk0
  rw [View.read_apply]
  show V c main_arg3 _ = V c main_arg3 _
  congr 1
  funext a
  apply Fin.ext
  match a with
  | ⟨0, _⟩ => show win0_1.index t (0 : Fin 2) * 1024 + 1 * k.val = k.val; rw [e0]; omega
  | ⟨1, _⟩ => show win0_1.index t (1 : Fin 2) * 1024 + 1 * j.val = j.val; rw [e1]; omega

/-- The bias block at every point is the bias. -/
theorem bias0_apply (c : Dev nD) (t : Fin cfg0.N) (j : Fin 1024) :
    (iblk0 V c 2 t : Vec Ideal S1024 .f32) (ix1 j) = (V c main_arg4 : Cert.Mha.SB.Idx → EReal) (ix1 j) := by
  obtain ⟨-, -, -, -, e0, -⟩ := idx_facts0 t
  unfold iblk0
  rw [View.read_apply]
  show V c main_arg4 _ = V c main_arg4 _
  congr 1
  funext a
  apply Fin.ext
  match a with
  | ⟨0, _⟩ => show win0_2.index t (0 : Fin 1) * 1024 + 1 * j.val = j.val; rw [e0]; omega

/-- What point t writes back is block t of the projection of the arrays as the region finds them. -/
theorem flushed0_eq (c : Dev nD) (t : Fin cfg0.N) :
    (dat0 (F := Ideal) V c).flushed 3 t
      = ((cfg0.win 3).blk t).view.read (Elt Ideal) (Cert.Mha.proj (V c main_arg0) (V c main_arg3) (V c main_arg4)) := by
  show (cfg0.win 3).cut (grid0.coords t) ((dat0 (F := Ideal) V c).after 3 t) = _
  rw [after0_3]
  unfold out0_3
  rw [View.canon_unit_zero hz3]
  simp only [View.ld_unit_zero (S := S512x1024) hz2, View.ld_unit_zero (S := S1024x1024) hz2, View.ld_unit_zero (S := S1024) hz1]
  obtain ⟨-, -, -, -, -, e0, e1, e2⟩ := idx_facts0 t
  funext j
  rw [View.read_apply]
  refine block_proj (V c main_arg0) (V c main_arg3) (V c main_arg4) (iblk0 V c 0 t) (iblk0 V c 1 t) (iblk0 V c 2 t) t.val
    (fun r k q hq => tokens0_apply V c t r k q hq) (fun k j => weight0_apply V c t k j) (fun j => bias0_apply V c t j)
    _ _ ?_ ?_ ?_
  · show win0_3.index t (0 : Fin 3) * 16 + 1 * (j 0).val = (j 0).val; rw [e0]; omega
  · show win0_3.index t (1 : Fin 3) * 512 + 1 * (j 1).val = 512 * t.val + (j 1).val; rw [e1]; omega
  · show win0_3.index t (2 : Fin 3) * 64 + 1 * (j 2).val = (j 2).val; rw [e2]; omega

/-- An index of the array is in point t's block iff each coordinate is in the block's range on its axis. -/
theorem mem_blk0 (t : Fin cfg0.N) (i : S16x2048x64.Idx) :
    i ∈ ((cfg0.win 3).blk t).view.set ↔ ∀ a : Fin 3, win0_3.index t a * S16x512x64.size a ≤ (i a).val ∧ (i a).val < win0_3.index t a * S16x512x64.size a + S16x512x64.size a := by
  show i ∈ ((View.whole main_v0).slice (win0_3.rect t)).set ↔ _
  rw [View.set_slice_whole, Rect.mem_set_unit]
  exact Iff.rfl

/-- Every index of the array is in the block of the point its row belongs to. -/
theorem cover0 (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  have hN : grid0.N = 4 := N_0
  let t : Fin cfg0.N := ⟨(i 1).val / 512, by show (i 1).val / 512 < grid0.N; rw [hN]; omega⟩
  have ht : t.val = (i 1).val / 512 := rfl
  obtain ⟨-, -, -, -, -, e0, e1, e2⟩ := idx_facts0 t
  refine ⟨t, flush0_3 t, ?_⟩
  rw [mem_blk0]
  intro a
  match a with
  | ⟨0, _⟩ => show win0_3.index t (0 : Fin 3) * 16 ≤ (i 0).val ∧ (i 0).val < win0_3.index t (0 : Fin 3) * 16 + 16; rw [e0]; omega
  | ⟨1, _⟩ => show win0_3.index t (1 : Fin 3) * 512 ≤ (i 1).val ∧ (i 1).val < win0_3.index t (1 : Fin 3) * 512 + 512; rw [e1, ht]; omega
  | ⟨2, _⟩ => show win0_3.index t (2 : Fin 3) * 64 ≤ (i 2).val ∧ (i 2).val < win0_3.index t (2 : Fin 3) * 64 + 64; rw [e2]; omega

/-- The projected array after the run: the head-major projection of the token array by the weight and the bias. -/
theorem final0 (c : Dev nD) :
    (dat0 (F := Ideal) V c).arrAt 3 cfg0.N = Cert.Mha.proj (V c main_arg0) (V c main_arg3) (V c main_arg4) :=
  (dat0 (F := Ideal) V c).arrAt_eq_of_cover 3 (Cert.Mha.proj (V c main_arg0) (V c main_arg3) (V c main_arg4))
    (fun t _ => flushed0_eq V c t) (cover0)

end Cert.KernelIdeal.ProjValue

end
-- ==== Proof.ProjArr1.lean ====
/-
  The array a head-major projection leaves behind.  The grid has four points; point t reads rows 512 t … 512 t + 511
  of the token array and the whole weight and bias, and writes back rows 512 t … 512 t + 511 of every head.  Each
  written block is that block of the projection of the three arrays as the region finds them, and the four blocks
  tile the [16, 2048, 64] array (row n belongs to point n / 512), so the array ends holding the projection.
-/
import proofs.«120498_j67860483277320_2_alg».proof.Proof.Gen.KernelIdeal.Frame
import proofs.«120498_j67860483277320_2_alg».proof.Proof.ProjBlock
import Idealize.ShloMosaic.Lib.Pipeline.Value
import Idealize.ShloMosaic.Lib.Tactic

noncomputable section

namespace Cert.KernelIdeal.ProjValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at point t: the token block and the output block move with t along the row axis; the weight
    and the bias stay whole. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 3) = 0 ∧ win1_3.index t (1 : Fin 3) = t.val ∧ win1_3.index t (2 : Fin 3) = 0 :=
  (by decide +kernel : ∀ t : Fin grid1.N, _)

/-- The token block at point t is rows 512 t … of the token array. -/
theorem tokens1_apply (c : Dev nD) (t : Fin cfg1.N) (r : Fin 512) (k : Fin 1024) (q : Fin 2048)
    (hq : q.val = 512 * t.val + r.val) :
    (iblk1 V c 0 t : Vec Ideal S512x1024 .f32) (ix2 r k) = (V c main_arg1 : Cert.Mha.SX.Idx → EReal) (ix2 q k) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 512 + 1 * r.val = q.val; rw [e0, hq]; omega
  | ⟨1, _⟩ => show win1_0.index t (1 : Fin 2) * 1024 + 1 * k.val = k.val; rw [e1]; omega

/-- The weight block at every point is the weight. -/
theorem weight1_apply (c : Dev nD) (t : Fin cfg1.N) (k j : Fin 1024) :
    (iblk1 V c 1 t : Vec Ideal S1024x1024 .f32) (ix2 k j) = (V c main_arg5 : Cert.Mha.SW.Idx → EReal) (ix2 k j) := by
  obtain ⟨-, -, e0, e1, -⟩ := idx_facts1 t
  unfold iblk1
  rw [View.read_apply]
  show V c main_arg5 _ = V c main_arg5 _
  congr 1
  funext a
  apply Fin.ext
  match a with
  | ⟨0, _⟩ => show win1_1.index t (0 : Fin 2) * 1024 + 1 * k.val = k.val; rw [e0]; omega
  | ⟨1, _⟩ => show win1_1.index t (1 : Fin 2) * 1024 + 1 * j.val = j.val; rw [e1]; omega

/-- The bias block at every point is the bias. -/
theorem bias1_apply (c : Dev nD) (t : Fin cfg1.N) (j : Fin 1024) :
    (iblk1 V c 2 t : Vec Ideal S1024 .f32) (ix1 j) = (V c main_arg6 : Cert.Mha.SB.Idx → EReal) (ix1 j) := by
  obtain ⟨-, -, -, -, e0, -⟩ := idx_facts1 t
  unfold iblk1
  rw [View.read_apply]
  show V c main_arg6 _ = V c main_arg6 _
  congr 1
  funext a
  apply Fin.ext
  match a with
  | ⟨0, _⟩ => show win1_2.index t (0 : Fin 1) * 1024 + 1 * j.val = j.val; rw [e0]; omega

/-- What point t writes back is block t of the projection of the arrays as the region finds them. -/
theorem flushed1_eq (c : Dev nD) (t : Fin cfg1.N) :
    (dat1 (F := Ideal) V c).flushed 3 t
      = ((cfg1.win 3).blk t).view.read (Elt Ideal) (Cert.Mha.proj (V c main_arg1) (V c main_arg5) (V c main_arg6)) := by
  show (cfg1.win 3).cut (grid1.coords t) ((dat1 (F := Ideal) V c).after 3 t) = _
  rw [after1_3]
  unfold out1_3
  rw [View.canon_unit_zero hz3]
  simp only [View.ld_unit_zero (S := S512x1024) hz2, View.ld_unit_zero (S := S1024x1024) hz2, View.ld_unit_zero (S := S1024) hz1]
  rw [k1_pay1_eq]
  obtain ⟨-, -, -, -, -, e0, e1, e2⟩ := idx_facts1 t
  funext j
  rw [View.read_apply]
  refine block_proj (V c main_arg1) (V c main_arg5) (V c main_arg6) (iblk1 V c 0 t) (iblk1 V c 1 t) (iblk1 V c 2 t) t.val
    (fun r k q hq => tokens1_apply V c t r k q hq) (fun k j => weight1_apply V c t k j) (fun j => bias1_apply V c t j)
    _ _ ?_ ?_ ?_
  · show win1_3.index t (0 : Fin 3) * 16 + 1 * (j 0).val = (j 0).val; rw [e0]; omega
  · show win1_3.index t (1 : Fin 3) * 512 + 1 * (j 1).val = 512 * t.val + (j 1).val; rw [e1]; omega
  · show win1_3.index t (2 : Fin 3) * 64 + 1 * (j 2).val = (j 2).val; rw [e2]; omega

/-- An index of the array is in point t's block iff each coordinate is in the block's range on its axis. -/
theorem mem_blk1 (t : Fin cfg1.N) (i : S16x2048x64.Idx) :
    i ∈ ((cfg1.win 3).blk t).view.set ↔ ∀ a : Fin 3, win1_3.index t a * S16x512x64.size a ≤ (i a).val ∧ (i a).val < win1_3.index t a * S16x512x64.size a + S16x512x64.size a := by
  show i ∈ ((View.whole main_v1).slice (win1_3.rect t)).set ↔ _
  rw [View.set_slice_whole, Rect.mem_set_unit]
  exact Iff.rfl

/-- Every index of the array is in the block of the point its row belongs to. -/
theorem cover1 (i : S16x2048x64.Idx) :
    ∃ t : Fin cfg1.N, (cfg1.win 3).flush t = true ∧ i ∈ ((cfg1.win 3).blk t).view.set := by
  have hi0 : (i 0).val < 16 := (i 0).isLt
  have hi1 : (i 1).val < 2048 := (i 1).isLt
  have hi2 : (i 2).val < 64 := (i 2).isLt
  have hN : grid1.N = 4 := N_1
  let t : Fin cfg1.N := ⟨(i 1).val / 512, by show (i 1).val / 512 < grid1.N; rw [hN]; omega⟩
  have ht : t.val = (i 1).val / 512 := rfl
  obtain ⟨-, -, -, -, -, e0, e1, e2⟩ := idx_facts1 t
  refine ⟨t, flush1_3 t, ?_⟩
  rw [mem_blk1]
  intro a
  match a with
  | ⟨0, _⟩ => show win1_3.index t (0 : Fin 3) * 16 ≤ (i 0).val ∧ (i 0).val < win1_3.index t (0 : Fin 3) * 16 + 16; rw [e0]; omega
  | ⟨1, _⟩ => show win1_3.index t (1 : Fin 3) * 512 ≤ (i 1).val ∧ (i 1).val < win1_3.index t (1 : Fin 3) * 512 + 512; rw [e1, ht]; omega
  | ⟨2, _⟩ => show win1_3.index t (2 : Fin 3) * 64 ≤ (i 2).val ∧ (i 2).val < win1_3.index t (2 : Fin 3) * 64 + 64; rw [e2]; omega

/-- The projected array after the run: the head-major projection of the token array by the weight and the bias. -/
theorem final1 (c : Dev nD) :
    (dat1 (F := Ideal) V c).arrAt 3 cfg1.N = Cert.Mha.proj (V c main_arg1) (V c main_arg5) (V c main_arg6) :=
  (dat1 (F := Ideal) V c).arrAt_eq_of_cover 3 (Cert.Mha.proj (V c main_arg1) (V c main_arg5) (V c main_arg6))
    (fun t _ => flushed1_eq V c t) (cover1)

end Cert.KernelIdeal.ProjValue

end
-- ==== Proof.ProjArr2.lean ====
/-
  The array a head-major projection leaves behind.  The grid has four points; point t reads rows 512 t … 512 t + 511
  of the token array and the whole weight and bias, and writes back rows 512 t … 512 t + 511 of every head.  Each
  written block is that block of the projection of the three arrays as the region finds them, and the four blocks
  tile the [16, 2048, 64] array (row n belongs to point n / 512), so the array ends holding the projection.
-/
import proofs.«120498_j67860483277320_2_alg».proof.Proof.Gen.KernelIdeal.Frame
import proofs.«120498_j67860483277320_2_alg».proof.Proof.ProjBlock
import Idealize.ShloMosaic.Lib.Pipeline.Value
import Idealize.ShloMosaic.Lib.Tactic

noncomputable section

namespace Cert.KernelIdeal.ProjValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block indices at point t: the token block and the output block move with t along the row axis; the weight
    and the bias stay whole. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 3) = 0 ∧ win2_3.index t (1 : Fin 3) = t.val ∧ win2_3.index t (2 : Fin 3) = 0 :=
  (by decide +kernel : ∀ t : Fin grid2.N, _)

/-- The token block at point t is rows 512 t … of the token array. -/
theorem tokens2_apply (c : Dev nD) (t : Fin cfg2.N) (r : Fin 512) (k : Fin 1024) (q : Fin 2048)
    (hq : q.val = 512 * t.val + r.val) :
    (iblk2 V c 0 t : Vec Ideal S512x1024 .f32) (ix2 r k) = (V c main_arg2 : Cert.Mha.SX.Idx → EReal) (ix2 q k) := by
  obtain ⟨e0, e1, -⟩ := idx_facts2 t
  unfold iblk2
  rw [View.read_apply]
  show V c main_arg2 _ = V c main_arg2 _
  congr 1
  funext a
  apply Fin.ext
  match a with
  | ⟨0, _⟩ => show win2_0.index t (0 : Fin 2) * 512 + 1 * r.val = q.val; rw [e0, hq]; omega
  | ⟨1, _⟩ => show win2_0.index t (1 : Fin 2) * 1024 + 1 * k.val = k.val; rw [e1]; omega

/-- The weight block at every point is the weight. -/
theorem weight2_apply (c : Dev nD) (t : Fin cfg2.N) (k j : Fin 1024) :
    (iblk2 V c 1 t : Vec Ideal S1024x1024 .f32) (ix2 k j) = (V c main_arg7 : Cert.Mha.SW.Idx → EReal) (ix2 k j) := by
  obtain ⟨-, -, e0, e1, -⟩ := idx_facts2 t
  unfold iblk2
  rw [View.read_apply]
  show V c main_arg7 _ = V c main_arg7 _
  congr 1
  funext a
  apply Fin.ext
  match a with
  | ⟨0, _⟩ => show win2_1.index t (0 : Fin 2) * 1024 + 1 * k.val = k.val; rw [e0]; omega
  | ⟨1, _⟩ => show win2_1.index t (1 : Fin 2) * 1024 + 1 * j.val = j.val; rw [e1]; omega

/-- The bias block at every point is the bias. -/
theorem bias2_apply (c : Dev nD) (t : Fin cfg2.N) (j : Fin 1024) :
    (iblk2 V c 2 t : Vec Ideal S1024 .f32) (ix1 j) = (V c main_arg8 : Cert.Mha.SB.Idx → EReal) (ix1 j) := by
  obtain ⟨-, -, -, -, e0, -⟩ := idx_facts2 t
  unfold iblk2
  rw [View.read_apply]
  show V c main_arg8 _ = V c main_arg8 _
  congr 1
  funext a
  apply Fin.ext
  match a with
  | ⟨0, _⟩ => show win2_2.index t (0 : Fin 1) * 1024 + 1 * j.val = j.val; rw [e0]; omega

/-- What point t writes back is block t of the projection of the arrays as the region finds them. -/
theorem flushed2_eq (c : Dev nD) (t : Fin cfg2.N) :
    (dat2 (F := Ideal) V c).flushed 3 t
      = ((cfg2.win 3).blk t).view.read (Elt Ideal) (Cert.Mha.proj (V c main_arg2) (V c main_arg7) (V c main_arg8)) := by
  show (cfg2.win 3).cut (grid2.coords t) ((dat2 (F := Ideal) V c).after 3 t) = _
  rw [after2_3]
  unfold out2_3
  rw [View.canon_unit_zero hz3]
  simp only [View.ld_unit_zero (S := S512x1024) hz2, View.ld_unit_zero (S := S1024x1024) hz2, View.ld_unit_zero (S := S1024) hz1]
  rw [k2_pay1_eq]
  obtain ⟨-, -, -, -, -, e0, e1, e2⟩ := idx_facts2 t
  funext j
  rw [View.read_apply]
  refine block_proj (V c main_arg2) (V c main_arg7) (V c main_arg8) (iblk2 V c 0 t) (iblk2 V c 1 t) (iblk2 V c 2 t) t.val
    (fun r k q hq => tokens2_apply V c t r k q hq) (fun k j => weight2_apply V c t k j) (fun j => bias2_apply V c t j)
    _ _ ?_ ?_ ?_
  · show win2_3.index t (0 : Fin 3) * 16 + 1 * (j 0).val = (j 0).val; rw [e0]; omega
  · show win2_3.index t (1 : Fin 3) * 512 + 1 * (j 1).val = 512 * t.val + (j 1).val; rw [e1]; omega
  · show win2_3.index t (2 : Fin 3) * 64 + 1 * (j 2).val = (j 2).val; rw [e2]; omega

/-- An index of the array is in point t's block iff each coordinate is in the block's range on its axis. -/
theorem mem_blk2 (t : Fin cfg2.N) (i : S16x2048x64.Idx) :
    i ∈ ((cfg2.win 3).blk t).view.set ↔ ∀ a : Fin 3, win2_3.index t a * S16x512x64.size a ≤ (i a).val ∧ (i a).val < win2_3.index t a * S16x512x64.size a + S16x512x64.size a := by
  show i ∈ ((View.whole main_v2).slice (win2_3.rect t)).set ↔ _
  rw [View.set_slice_whole, Rect.mem_set_unit]
  exact Iff.rfl

/-- Every index of the array is in the block of the point its row belongs to. -/
theorem cover2 (i : S16x2048x64.Idx) :
    ∃ t : Fin cfg2.N, (cfg2.win 3).flush t = true ∧ i ∈ ((cfg2.win 3).blk t).view.set := by
  have hi0 : (i 0).val < 16 := (i 0).isLt
  have hi1 : (i 1).val < 2048 := (i 1).isLt
  have hi2 : (i 2).val < 64 := (i 2).isLt
  have hN : grid2.N = 4 := N_2
  let t : Fin cfg2.N := ⟨(i 1).val / 512, by show (i 1).val / 512 < grid2.N; rw [hN]; omega⟩
  have ht : t.val = (i 1).val / 512 := rfl
  obtain ⟨-, -, -, -, -, e0, e1, e2⟩ := idx_facts2 t
  refine ⟨t, flush2_3 t, ?_⟩
  rw [mem_blk2]
  intro a
  match a with
  | ⟨0, _⟩ => show win2_3.index t (0 : Fin 3) * 16 ≤ (i 0).val ∧ (i 0).val < win2_3.index t (0 : Fin 3) * 16 + 16; rw [e0]; omega
  | ⟨1, _⟩ => show win2_3.index t (1 : Fin 3) * 512 ≤ (i 1).val ∧ (i 1).val < win2_3.index t (1 : Fin 3) * 512 + 512; rw [e1, ht]; omega
  | ⟨2, _⟩ => show win2_3.index t (2 : Fin 3) * 64 ≤ (i 2).val ∧ (i 2).val < win2_3.index t (2 : Fin 3) * 64 + 64; rw [e2]; omega

/-- The projected array after the run: the head-major projection of the token array by the weight and the bias. -/
theorem final2 (c : Dev nD) :
    (dat2 (F := Ideal) V c).arrAt 3 cfg2.N = Cert.Mha.proj (V c main_arg2) (V c main_arg7) (V c main_arg8) :=
  (dat2 (F := Ideal) V c).arrAt_eq_of_cover 3 (Cert.Mha.proj (V c main_arg2) (V c main_arg7) (V c main_arg8))
    (fun t _ => flushed2_eq V c t) (cover2)

end Cert.KernelIdeal.ProjValue

end
-- ==== Proof.AttnScores.lean ====
/-
  The scores of one attention block: a [512, 64] block of query rows against the [2048, 64] rows of the head's keys,
  contracted over the 64 lanes into a zero accumulator and scaled by the literal 0.125.  Read at (r, m) it is the
  sum over the lanes of the products, times that literal.
-/
import proofs.«120498_j67860483277320_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnBlock

open Cert.KernelIdeal Cert.KernelIdeal.Gen Idealize.ShloMosaic Idealize.ShloMosaic.ValueIdx

/-- The contraction of query rows with key rows over the lanes. -/
abbrev DQK : DotDims S512x64 S2048x64 S512x2048 := dot_S512x64_S2048x64_S512x2048_1_1_0_0_n_n

theorem DQK_lhs0 (i : S512x2048.Idx) (q : DQK.contr.Idx) : (DQK.lhsIdx i q 0).val = (i 0).val := by
  unfold DotDims.lhsIdx
  rw [dif_neg (show ¬(0 : Fin S512x64.rank) ∈ DQK.lhsBatch by decide), dif_pos (show (0 : Fin S512x64.rank) ∈ DQK.lhsNonContracting by decide)]
  rfl

theorem DQK_rhs0 (i : S512x2048.Idx) (q : DQK.contr.Idx) : (DQK.rhsIdx i q 0).val = (i 1).val := by
  unfold DotDims.rhsIdx
  rw [dif_neg (show ¬(0 : Fin S2048x64.rank) ∈ DQK.rhsBatch by decide), dif_pos (show (0 : Fin S2048x64.rank) ∈ DQK.rhsNonContracting by decide)]
  rfl

/-- The scaled scores of a block, as the kernel body spells them. -/
def scoresV (q : FVec Ideal S1x512x64 .bf16) (k : FVec Ideal S1x2048x64 .bf16) : FVec Ideal S512x2048 .f32 :=
  mulf (matmul dot_S512x64_S2048x64_S512x2048_1_1_0_0_n_n none (shapeCast S512x64 q shapeCasts_S1x512x64_S512x64)
      (shapeCast S2048x64 k shapeCasts_S1x2048x64_S2048x64) (constant S512x2048 .f32 0x00000000#32))
    (broadcast S512x2048 (Scalar.ofBits .f32 0x3E000000#32))

/-- The scores read at an entry: query row `r` against key row `m`, summed over the lanes, times the literal. -/
theorem scoresV_apply (q : FVec Ideal S1x512x64 .bf16) (k : FVec Ideal S1x2048x64 .bf16) (r : Fin 512) (m : Fin 2048) :
    scoresV q k (ix2 r m) = (∑ d : Fin 64, q (ix3 (0 : Fin 1) r d) * k (ix3 (0 : Fin 1) m d)) * Ideal.ofBits .f32 0x3E000000#32 := by
  unfold scoresV
  rw [mulf_apply]
  refine congrArg (· * Ideal.ofBits .f32 0x3E000000#32) ?_
  simp only [matmul]
  rw [Ideal.matmul_constant_zero_apply, ← Equiv.sum_comp (contrEquiv1 DQK 64 rfl rfl).symm]
  refine Finset.sum_congr rfl fun d _ => ?_
  have hd := contrEquiv1_symm_val DQK 64 rfl rfl d
  have el : DQK.lhsIdx (ix2 r m) ((contrEquiv1 DQK 64 rfl rfl).symm d) = ix2 r d := funext fun a => Fin.ext (by
    match a with
    | ⟨0, _⟩ => exact DQK_lhs0 _ _
    | ⟨1, _⟩ => exact (DQK.lhsIdx_val_of_single rfl _ _).trans hd)
  have er : DQK.rhsIdx (ix2 r m) ((contrEquiv1 DQK 64 rfl rfl).symm d) = ix2 m d := funext fun a => Fin.ext (by
    match a with
    | ⟨0, _⟩ => exact DQK_rhs0 _ _
    | ⟨1, _⟩ => exact (DQK.rhsIdx_val_of_single rfl _ _).trans hd)
  rw [el, er, shapeCast_1ab_ab_apply, shapeCast_1ab_ab_apply]

end Cert.KernelIdeal.AttnBlock

end
-- ==== Proof.AttnSoftmax.lean ====
/-
  The row-wise softmax of a [512, 2048] block of scores, read at an entry (r, m): the score minus the largest score of
  row r, exponentiated, over the sum along row r of those exponentials.  The row's maximum and the row's sum are both
  kept as a column [512, 1] and spread back over the 2048 lanes; read at (r, m) the spread column is the reduced vector
  at r.
-/
import proofs.«120498_j67860483277320_2_alg».proof.Proof.Gen.KernelIdeal
import proofs.«120498_j67860483277320_2_alg».proof.Proof.Spec
import Idealize.ShloMosaic.Lib.ValueIdx
import Idealize.ShloMosaic.Lib.Pipeline.Value
import Idealize.ShloMosaic.PureOps.Ideal.Laws

noncomputable section

namespace Cert.KernelIdeal.AttnBlock

open Cert.KernelIdeal Cert.KernelIdeal.Gen Idealize.ShloMosaic Idealize.ShloMosaic.ValueIdx

/-- A vector over the rows, kept as a one-lane column and spread over the lanes, read at (r, m), is the vector at r. -/
theorem spread_column_apply (x : FVec Ideal S512 .f32) (r : Fin 512) (m : Fin 2048) :
    broadcastTo S512x2048 (shapeCast S512x1 x shapeCasts_S512_S512x1) broadcasts_S512x1_S512x2048 (ix2 r m) = x (ix1 r) := by
  rw [broadcastTo_apply (shapeCast S512x1 x shapeCasts_S512_S512x1) broadcasts_S512x1_S512x2048 (ix2 r m) (ix2 r (0 : Fin 1))
    (fun a => by match a with | ⟨0, _⟩ => rfl | ⟨1, _⟩ => rfl)]
  exact shapeCast_apply x shapeCasts_S512_S512x1 (ix2 r (0 : Fin 1)) (ix1 r) (by
    rw [Shape.rowMajor_val_one, Shape.rowMajor_val_two]; show r.val = r.val * 1 + 0; omega)

/-- The largest entry of row `r` of a block of scores, from minus infinity. -/
def rmax (s : FVec Ideal S512x2048 .f32) (r : Fin 512) : EReal :=
  (Finset.univ : Finset (Fin 2048)).fold max Cert.Mha.negInf (fun m => s (ix2 r m))

/-- The softmax of a block of scores along its lanes, as the kernel body spells it. -/
def softmaxV (s : FVec Ideal S512x2048 .f32) : FVec Ideal S512x2048 .f32 :=
  divf (exp (subf s (broadcastTo S512x2048 (shapeCast S512x1 (multiReduction .maximumf [1] S512 s 0xFF800000#32 reduces_S512x2048_S512 (.inl rfl) rfl) shapeCasts_S512_S512x1) broadcasts_S512x1_S512x2048)))
    (broadcastTo S512x2048 (shapeCast S512x1 (multiReduction .add [1] S512 (exp (subf s (broadcastTo S512x2048 (shapeCast S512x1 (multiReduction .maximumf [1] S512 s 0xFF800000#32 reduces_S512x2048_S512 (.inl rfl) rfl) shapeCasts_S512_S512x1) broadcasts_S512x1_S512x2048))) 0x00000000#32 reduces_S512x2048_S512 (.inl rfl) rfl) shapeCasts_S512_S512x1) broadcasts_S512x1_S512x2048)

/-- The row maximum the body takes is `rmax`. -/
theorem rowmax_apply (s : FVec Ideal S512x2048 .f32) (r : Fin 512) :
    multiReduction .maximumf [1] S512 s 0xFF800000#32 reduces_S512x2048_S512 (.inl rfl) rfl (ix1 r) = rmax s r := by
  refine (Ideal.multiReduction_maximumf_single s 0xFF800000#32 reduces_S512x2048_S512 (.inl rfl) rfl (ix1 r)).trans ?_
  unfold rmax
  have e : (s ∘ reduces_S512x2048_S512.lift (ix1 r)) = fun m : Fin 2048 => s (ix2 r m) :=
    funext fun m => congrArg s (funext fun a => Fin.ext (by
      match a with
      | ⟨0, _⟩ => rfl
      | ⟨1, _⟩ => rfl))
  exact congrArg (fun f : Fin 2048 → EReal => (Finset.univ : Finset (Fin 2048)).fold max Cert.Mha.negInf f) e

/-- The row sum the body takes is the sum over the lanes. -/
theorem rowsum_apply (e : FVec Ideal S512x2048 .f32) (r : Fin 512) :
    multiReduction .add [1] S512 e 0x00000000#32 reduces_S512x2048_S512 (.inl rfl) rfl (ix1 r) = ∑ m : Fin 2048, e (ix2 r m) := by
  refine (Ideal.multiReduction_add_single e 0x00000000#32 reduces_S512x2048_S512 (.inl rfl) rfl (ix1 r)).trans ?_
  refine Finset.sum_congr rfl fun m _ => congrArg e (funext fun a => Fin.ext ?_)
  match a with
  | ⟨0, _⟩ => rfl
  | ⟨1, _⟩ => rfl

/-- The softmax read at an entry. -/
theorem softmaxV_apply (s : FVec Ideal S512x2048 .f32) (r : Fin 512) (m : Fin 2048) :
    softmaxV s (ix2 r m) = Ideal.div (Ideal.exp (s (ix2 r m) - rmax s r)) (∑ m' : Fin 2048, Ideal.exp (s (ix2 r m') - rmax s r)) := by
  unfold softmaxV
  rw [divf_apply, spread_column_apply, rowsum_apply]
  have hexp : ∀ m' : Fin 2048, exp (subf s (broadcastTo S512x2048 (shapeCast S512x1 (multiReduction .maximumf [1] S512 s 0xFF800000#32 reduces_S512x2048_S512 (.inl rfl) rfl) shapeCasts_S512_S512x1) broadcasts_S512x1_S512x2048)) (ix2 r m') = Ideal.exp (s (ix2 r m') - rmax s r) := by
    intro m'
    show Ideal.exp (subf s _ (ix2 r m')) = _
    rw [subf_apply, spread_column_apply, rowmax_apply]
  rw [hexp m]
  exact congrArg _ (Finset.sum_congr rfl fun m' _ => hexp m')

end Cert.KernelIdeal.AttnBlock

end
-- ==== Proof.Consts.lean ====
/-
  The two float literals whose VALUES the proof uses, as the extended reals their f32 words denote: the kernel's
  0.125 and the reference's 8.0.  (Every other literal is the same word on both sides and is never evaluated.)
-/
import Idealize.ShloMosaic.PureOps.Ideal

noncomputable section

namespace Cert.Mha.Consts

open Idealize.ShloMosaic

/-- `0.125` denotes the real 1/8. -/
theorem ofBits_eighth : Ideal.ofBits .f32 0x3E000000#32 = ((1 / 8 : ℝ) : EReal) := by
  simp [Ideal.ofBits, Ideal.ieee, -EReal.coe_mul]; norm_num

/-- `8.0` denotes the real 8. -/
theorem ofBits_eight : Ideal.ofBits .f32 0x41000000#32 = ((8 : ℝ) : EReal) := by
  simp [Ideal.ofBits, Ideal.ieee, -EReal.coe_mul]; norm_num

end Cert.Mha.Consts

end
-- ==== Proof.AttnBlock.lean ====
/-
  What one attention step computes, entry by entry, in terms of the head-major arrays it reads.  The step at head h and
  query block i holds 512 query rows (tokens 512·i + r), all 2048 key rows and all 2048 value rows of head h.  Its
  probability block at (r, m) is the attention probability of token m for token 512·i + r, and its context block at
  (r, d) is the sum over the tokens m of that probability times value (m, d): the specification's `attnAt` and
  `ctxAt`, whenever the three loaded blocks are those rows of the arrays.
-/
import proofs.«120498_j67860483277320_2_alg».proof.Proof.Gen.KernelIdeal.Skeleton
import proofs.«120498_j67860483277320_2_alg».proof.Proof.AttnScores
import proofs.«120498_j67860483277320_2_alg».proof.Proof.AttnSoftmax
import proofs.«120498_j67860483277320_2_alg».proof.Proof.Consts

noncomputable section

namespace Cert.KernelIdeal.AttnBlock

open Cert.KernelIdeal Cert.KernelIdeal.Gen Idealize.ShloMosaic Idealize.ShloMosaic.ValueIdx

/-- The body's probabilities are the softmax of its scores. -/
theorem pay1_eq (q : FVec Ideal S1x512x64 .bf16) (k : FVec Ideal S1x2048x64 .bf16) :
    k3_pay1 (F := Ideal) q k = softmaxV (scoresV q k) := rfl

/-- The stored probability block is the probabilities under a leading unit axis. -/
theorem pay2_apply (q : FVec Ideal S1x512x64 .bf16) (k : FVec Ideal S1x2048x64 .bf16) (r : Fin 512) (m : Fin 2048) :
    k3_pay2 (F := Ideal) q k (ix3 (0 : Fin 1) r m) = softmaxV (scoresV q k) (ix2 r m) := by
  unfold k3_pay2
  rw [pay1_eq]
  exact shapeCast_ab_1ab_apply _ _ _ _ _

/-- The contraction of a row of probabilities with the value rows over the 2048 tokens. -/
abbrev DAV : DotDims S512x2048 S2048x64 S512x64 := dot_S512x2048_S2048x64_S512x64_1_0_0_1_n_n

theorem DAV_lhs0 (i : S512x64.Idx) (q : DAV.contr.Idx) : (DAV.lhsIdx i q 0).val = (i 0).val := by
  unfold DotDims.lhsIdx
  rw [dif_neg (show ¬(0 : Fin S512x2048.rank) ∈ DAV.lhsBatch by decide), dif_pos (show (0 : Fin S512x2048.rank) ∈ DAV.lhsNonContracting by decide)]
  rfl

theorem DAV_rhs1 (i : S512x64.Idx) (q : DAV.contr.Idx) : (DAV.rhsIdx i q 1).val = (i 1).val := by
  unfold DotDims.rhsIdx
  rw [dif_neg (show ¬(1 : Fin S2048x64.rank) ∈ DAV.rhsBatch by decide), dif_pos (show (1 : Fin S2048x64.rank) ∈ DAV.rhsNonContracting by decide)]
  rfl

/-- The stored context block at (r, d): the probabilities of row `r` against lane `d` of the value rows. -/
theorem pay3_apply (q : FVec Ideal S1x512x64 .bf16) (k v : FVec Ideal S1x2048x64 .bf16) (r : Fin 512) (d : Fin 64) :
    k3_pay3 (F := Ideal) q k v (ix3 (0 : Fin 1) r d)
      = ∑ m : Fin 2048, softmaxV (scoresV q k) (ix2 r m) * v (ix3 (0 : Fin 1) m d) := by
  unfold k3_pay3
  rw [pay1_eq]
  refine (shapeCast_ab_1ab_apply _ _ _ _ _).trans ?_
  rw [truncf_apply]
  simp only [matmul]
  rw [Ideal.matmul_constant_zero_apply, ← Equiv.sum_comp (contrEquiv1 DAV 2048 rfl rfl).symm]
  refine Finset.sum_congr rfl fun m _ => ?_
  have hm := contrEquiv1_symm_val DAV 2048 rfl rfl m
  have el : DAV.lhsIdx (ix2 r d) ((contrEquiv1 DAV 2048 rfl rfl).symm m) = ix2 r m := funext fun a => Fin.ext (by
    match a with
    | ⟨0, _⟩ => exact DAV_lhs0 _ _
    | ⟨1, _⟩ => exact (DAV.lhsIdx_val_of_single rfl _ _).trans hm)
  have er : DAV.rhsIdx (ix2 r d) ((contrEquiv1 DAV 2048 rfl rfl).symm m) = ix2 m d := funext fun a => Fin.ext (by
    match a with
    | ⟨0, _⟩ => exact (DAV.rhsIdx_val_of_single rfl _ _).trans hm
    | ⟨1, _⟩ => exact DAV_rhs1 _ _)
  rw [el, er, truncf_apply, shapeCast_1ab_ab_apply]

/-! ## The block against the arrays -/

section Arrays

variable (q : FVec Ideal S1x512x64 .bf16) (k v : FVec Ideal S1x2048x64 .bf16)
  (Q K V : Cert.Mha.SH.Idx → EReal) (h : Fin 16) (n : Fin 2048) (r : Fin 512)
  (hq : ∀ d : Fin 64, q (ix3 (0 : Fin 1) r d) = Q (ix3 h n d))
  (hk : ∀ (m : Fin 2048) (d : Fin 64), k (ix3 (0 : Fin 1) m d) = K (ix3 h m d))

include hq hk

/-- The block's score at (r, m) is the specification's score of token `n` against token `m`. -/
theorem scores_eq (m : Fin 2048) : scoresV q k (ix2 r m) = Cert.Mha.scoreAt Q K h n m := by
  rw [scoresV_apply, Cert.Mha.Consts.ofBits_eighth]
  unfold Cert.Mha.scoreAt
  exact congrArg (· * Cert.Mha.eighth) (Finset.sum_congr rfl fun d _ => by rw [hq d, hk m d])

theorem rmax_eq : rmax (scoresV q k) r = Cert.Mha.rowMax Q K h n := by
  unfold rmax Cert.Mha.rowMax
  exact congrArg (fun f : Fin 2048 → EReal => (Finset.univ : Finset (Fin 2048)).fold max Cert.Mha.negInf f)
    (funext fun m => scores_eq q k Q K h n r hq hk m)

/-- The block's probability at (r, m) is the specification's. -/
theorem softmax_eq (m : Fin 2048) : softmaxV (scoresV q k) (ix2 r m) = Cert.Mha.attnAt Q K h n m := by
  rw [softmaxV_apply, rmax_eq q k Q K h n r hq hk]
  unfold Cert.Mha.attnAt Cert.Mha.rowSum Cert.Mha.expAt
  rw [scores_eq q k Q K h n r hq hk m]
  exact congrArg _ (Finset.sum_congr rfl fun m' _ => by rw [scores_eq q k Q K h n r hq hk m'])

/-- The block's context at (r, d) is the specification's, when the value block is the head's value rows. -/
theorem ctx_eq (hv : ∀ (m : Fin 2048) (d : Fin 64), v (ix3 (0 : Fin 1) m d) = V (ix3 h m d)) (d : Fin 64) :
    k3_pay3 (F := Ideal) q k v (ix3 (0 : Fin 1) r d) = Cert.Mha.ctxAt Q K V h n d := by
  rw [pay3_apply]
  unfold Cert.Mha.ctxAt
  exact Finset.sum_congr rfl fun m _ => by rw [softmax_eq q k Q K h n r hq hk m, hv m d]

end Arrays

end Cert.KernelIdeal.AttnBlock

end
-- ==== Proof.AttnArr.lean ====
/-
  The two arrays the attention launch leaves.  Its grid is 16 heads by 4 query blocks; the step at (h, i) reads query
  rows 512·i … 512·i + 511 of head h and all the key and value rows of head h, and writes back rows 512·i … 512·i + 511
  of head h of the probability array and of the context array.  The 64 write-backs tile both arrays, and each is the
  corresponding block of the specification's `attn` / `ctx` of the three head-major arrays as the launch finds them:
  so after the launch the arrays ARE those functions.
-/
import proofs.«120498_j67860483277320_2_alg».proof.Proof.Gen.KernelIdeal.Frame
import proofs.«120498_j67860483277320_2_alg».proof.Proof.AttnBlock
import Idealize.ShloMosaic.Lib.Pipeline.Value

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The five index maps over the 64 grid points: the query, probability and context windows move together over
    (head, query block); the key and value windows follow the head only. -/
theorem idx_facts : ∀ t : Fin cfg3.N,
    win3_0.index t (0 : Fin 3) = win3_3.index t (0 : Fin 3) ∧ win3_0.index t (1 : Fin 3) = win3_3.index t (1 : Fin 3) ∧ win3_0.index t (2 : Fin 3) = 0
    ∧ win3_1.index t (0 : Fin 3) = win3_3.index t (0 : Fin 3) ∧ win3_1.index t (1 : Fin 3) = 0 ∧ win3_1.index t (2 : Fin 3) = 0
    ∧ win3_2.index t (0 : Fin 3) = win3_3.index t (0 : Fin 3) ∧ win3_2.index t (1 : Fin 3) = 0 ∧ win3_2.index t (2 : Fin 3) = 0
    ∧ win3_4.index t (0 : Fin 3) = win3_3.index t (0 : Fin 3) ∧ win3_4.index t (1 : Fin 3) = win3_3.index t (1 : Fin 3) ∧ win3_4.index t (2 : Fin 3) = 0
    ∧ win3_3.index t (0 : Fin 3) ≤ 15 ∧ win3_3.index t (1 : Fin 3) ≤ 3 ∧ win3_3.index t (2 : Fin 3) = 0 :=
  (by decide +kernel : ∀ t : Fin grid3.N, _)

/-- Every (head, query block) is some grid point's. -/
theorem idx_onto : ∀ (q0 : Fin 16) (q1 : Fin 4), ∃ t : Fin cfg3.N, win3_3.index t = ![q0.val, q1.val, 0] :=
  (by decide +kernel : ∀ (q0 : Fin 16) (q1 : Fin 4), ∃ t : Fin grid3.N, win3_3.index t = ![q0.val, q1.val, 0])

/-! ## The input blocks, read off the arrays -/

theorem qblk_apply (c : Dev nD) (t : Fin cfg3.N) (y : S1x512x64.Idx) (i : S16x2048x64.Idx)
    (h0 : win3_0.index t (0 : Fin 3) * 1 + 1 * (y 0).val = (i 0).val)
    (h1 : win3_0.index t (1 : Fin 3) * 512 + 1 * (y 1).val = (i 1).val)
    (h2 : win3_0.index t (2 : Fin 3) * 64 + 1 * (y 2).val = (i 2).val) :
    (iblk3 V c 0 t : FVec Ideal S1x512x64 .bf16) y = (V c main_v0 : S16x2048x64.Idx → EReal) i := by
  unfold iblk3
  rw [View.read_apply]
  show V c main_v0 _ = V c main_v0 _
  refine congrArg (V c main_v0) (funext fun a => Fin.ext ?_)
  match a with
  | ⟨0, _⟩ => exact h0
  | ⟨1, _⟩ => exact h1
  | ⟨2, _⟩ => exact h2

theorem kblk_apply (c : Dev nD) (t : Fin cfg3.N) (y : S1x2048x64.Idx) (i : S16x2048x64.Idx)
    (h0 : win3_1.index t (0 : Fin 3) * 1 + 1 * (y 0).val = (i 0).val)
    (h1 : win3_1.index t (1 : Fin 3) * 2048 + 1 * (y 1).val = (i 1).val)
    (h2 : win3_1.index t (2 : Fin 3) * 64 + 1 * (y 2).val = (i 2).val) :
    (iblk3 V c 1 t : FVec Ideal S1x2048x64 .bf16) y = (V c main_v1 : S16x2048x64.Idx → EReal) i := by
  unfold iblk3
  rw [View.read_apply]
  show V c main_v1 _ = V c main_v1 _
  refine congrArg (V c main_v1) (funext fun a => Fin.ext ?_)
  match a with
  | ⟨0, _⟩ => exact h0
  | ⟨1, _⟩ => exact h1
  | ⟨2, _⟩ => exact h2

theorem vblk_apply (c : Dev nD) (t : Fin cfg3.N) (y : S1x2048x64.Idx) (i : S16x2048x64.Idx)
    (h0 : win3_2.index t (0 : Fin 3) * 1 + 1 * (y 0).val = (i 0).val)
    (h1 : win3_2.index t (1 : Fin 3) * 2048 + 1 * (y 1).val = (i 1).val)
    (h2 : win3_2.index t (2 : Fin 3) * 64 + 1 * (y 2).val = (i 2).val) :
    (iblk3 V c 2 t : FVec Ideal S1x2048x64 .bf16) y = (V c main_v2 : S16x2048x64.Idx → EReal) i := by
  unfold iblk3
  rw [View.read_apply]
  show V c main_v2 _ = V c main_v2 _
  refine congrArg (V c main_v2) (funext fun a => Fin.ext ?_)
  match a with
  | ⟨0, _⟩ => exact h0
  | ⟨1, _⟩ => exact h1
  | ⟨2, _⟩ => exact h2

/-! ## What a point writes back -/

/-- The probability block written back at a point is that block of `attn` of the query and key arrays. -/
theorem flushed_attn (c : Dev nD) (t : Fin cfg3.N) :
    (dat3 V c).flushed 3 t = ((cfg3.win 3).blk t).view.read (Elt Ideal) (Cert.Mha.attn (V c main_v0) (V c main_v1)) := by
  show (cfg3.win 3).cut (grid3.coords t) ((dat3 V c).after 3 t) = _
  rw [after3_3]
  unfold out3_3
  rw [View.canon_unit_zero hz3]
  simp only [View.ld_unit_zero (S := S1x512x64) hz3, View.ld_unit_zero (S := S1x2048x64) hz3]
  obtain ⟨e00, e01, e02, e10, e11, e12, e20, e21, e22, e40, e41, e42, b0, b1, b2⟩ := idx_facts t
  funext j
  obtain ⟨u, r, mm, rfl⟩ : ∃ (u : Fin 1) (r : Fin 512) (mm : Fin 2048), j = ix3 u r mm := ⟨j 0, j 1, j 2, eq_ix3 j⟩
  obtain rfl : u = 0 := Subsingleton.elim _ _
  show k3_pay2 (iblk3 V c 0 t) (iblk3 V c 1 t) (ix3 (0 : Fin 1) r mm)
    = Cert.Mha.attn (V c main_v0) (V c main_v1) (((cfg3.win 3).blk t).view.emb (ix3 (0 : Fin 1) r mm))
  refine (AttnBlock.pay2_apply (iblk3 V c 0 t) (iblk3 V c 1 t) r mm).trans ?_
  have hr : r.val < 512 := r.isLt
  have hh : win3_3.index t (0 : Fin 3) < 16 := by omega
  have hn : win3_3.index t (1 : Fin 3) * 512 + r.val < 2048 := by omega
  refine (AttnBlock.softmax_eq (iblk3 V c 0 t) (iblk3 V c 1 t) (V c main_v0) (V c main_v1)
    ⟨win3_3.index t (0 : Fin 3), hh⟩ ⟨win3_3.index t (1 : Fin 3) * 512 + r.val, hn⟩ r ?_ ?_ mm).trans ?_
  · intro d
    refine qblk_apply V c t (ix3 (0 : Fin 1) r d) (ix3 _ _ d) ?_ ?_ ?_
    · show win3_0.index t (0 : Fin 3) * 1 + 1 * 0 = win3_3.index t (0 : Fin 3); omega
    · show win3_0.index t (1 : Fin 3) * 512 + 1 * r.val = win3_3.index t (1 : Fin 3) * 512 + r.val; omega
    · show win3_0.index t (2 : Fin 3) * 64 + 1 * d.val = d.val; omega
  · intro m d
    refine kblk_apply V c t (ix3 (0 : Fin 1) m d) (ix3 _ m d) ?_ ?_ ?_
    · show win3_1.index t (0 : Fin 3) * 1 + 1 * 0 = win3_3.index t (0 : Fin 3); omega
    · show win3_1.index t (1 : Fin 3) * 2048 + 1 * m.val = m.val; omega
    · show win3_1.index t (2 : Fin 3) * 64 + 1 * d.val = d.val; omega
  · unfold Cert.Mha.attn
    show Cert.Mha.attnAt _ _ _ _ _ = Cert.Mha.attnAt _ _ _ _ _
    congr 1
    · exact Fin.ext (by show win3_3.index t (0 : Fin 3) = win3_3.index t (0 : Fin 3) * 1 + 1 * 0; omega)
    · exact Fin.ext (by show win3_3.index t (1 : Fin 3) * 512 + r.val = win3_3.index t (1 : Fin 3) * 512 + 1 * r.val; omega)
    · exact Fin.ext (by show mm.val = win3_3.index t (2 : Fin 3) * 2048 + 1 * mm.val; omega)

/-- The context block written back at a point is that block of `ctx` of the query, key and value arrays. -/
theorem flushed_ctx (c : Dev nD) (t : Fin cfg3.N) :
    (dat3 V c).flushed 4 t = ((cfg3.win 4).blk t).view.read (Elt Ideal) (Cert.Mha.ctx (V c main_v0) (V c main_v1) (V c main_v2)) := by
  show (cfg3.win 4).cut (grid3.coords t) ((dat3 V c).after 4 t) = _
  rw [after3_4]
  unfold out3_4
  rw [View.canon_unit_zero hz3]
  simp only [View.ld_unit_zero (S := S1x512x64) hz3, View.ld_unit_zero (S := S1x2048x64) hz3]
  obtain ⟨e00, e01, e02, e10, e11, e12, e20, e21, e22, e40, e41, e42, b0, b1, b2⟩ := idx_facts t
  funext j
  obtain ⟨u, r, d, rfl⟩ : ∃ (u : Fin 1) (r : Fin 512) (d : Fin 64), j = ix3 u r d := ⟨j 0, j 1, j 2, eq_ix3 j⟩
  obtain rfl : u = 0 := Subsingleton.elim _ _
  show k3_pay3 (iblk3 V c 0 t) (iblk3 V c 1 t) (iblk3 V c 2 t) (ix3 (0 : Fin 1) r d)
    = Cert.Mha.ctx (V c main_v0) (V c main_v1) (V c main_v2) (((cfg3.win 4).blk t).view.emb (ix3 (0 : Fin 1) r d))
  have hr : r.val < 512 := r.isLt
  have hh : win3_3.index t (0 : Fin 3) < 16 := by omega
  have hn : win3_3.index t (1 : Fin 3) * 512 + r.val < 2048 := by omega
  refine (AttnBlock.ctx_eq (iblk3 V c 0 t) (iblk3 V c 1 t) (iblk3 V c 2 t) (V c main_v0) (V c main_v1) (V c main_v2)
    ⟨win3_3.index t (0 : Fin 3), hh⟩ ⟨win3_3.index t (1 : Fin 3) * 512 + r.val, hn⟩ r ?_ ?_ ?_ d).trans ?_
  · intro d'
    refine qblk_apply V c t (ix3 (0 : Fin 1) r d') (ix3 _ _ d') ?_ ?_ ?_
    · show win3_0.index t (0 : Fin 3) * 1 + 1 * 0 = win3_3.index t (0 : Fin 3); omega
    · show win3_0.index t (1 : Fin 3) * 512 + 1 * r.val = win3_3.index t (1 : Fin 3) * 512 + r.val; omega
    · show win3_0.index t (2 : Fin 3) * 64 + 1 * d'.val = d'.val; omega
  · intro m d'
    refine kblk_apply V c t (ix3 (0 : Fin 1) m d') (ix3 _ m d') ?_ ?_ ?_
    · show win3_1.index t (0 : Fin 3) * 1 + 1 * 0 = win3_3.index t (0 : Fin 3); omega
    · show win3_1.index t (1 : Fin 3) * 2048 + 1 * m.val = m.val; omega
    · show win3_1.index t (2 : Fin 3) * 64 + 1 * d'.val = d'.val; omega
  · intro m d'
    refine vblk_apply V c t (ix3 (0 : Fin 1) m d') (ix3 _ m d') ?_ ?_ ?_
    · show win3_2.index t (0 : Fin 3) * 1 + 1 * 0 = win3_3.index t (0 : Fin 3); omega
    · show win3_2.index t (1 : Fin 3) * 2048 + 1 * m.val = m.val; omega
    · show win3_2.index t (2 : Fin 3) * 64 + 1 * d'.val = d'.val; omega
  · unfold Cert.Mha.ctx
    show Cert.Mha.ctxAt _ _ _ _ _ _ = Cert.Mha.ctxAt _ _ _ _ _ _
    congr 1
    · exact Fin.ext (by show win3_3.index t (0 : Fin 3) = win3_4.index t (0 : Fin 3) * 1 + 1 * 0; omega)
    · exact Fin.ext (by show win3_3.index t (1 : Fin 3) * 512 + r.val = win3_4.index t (1 : Fin 3) * 512 + 1 * r.val; omega)
    · exact Fin.ext (by show d.val = win3_4.index t (2 : Fin 3) * 64 + 1 * d.val; omega)

/-! ## The write-backs tile the arrays -/

theorem mem_blk_attn (t : Fin cfg3.N) (i : S16x2048x2048.Idx) :
    i ∈ ((cfg3.win 3).blk t).view.set ↔ ∀ a : Fin 3, win3_3.index t a * S1x512x2048.size a ≤ (i a).val ∧ (i a).val < win3_3.index t a * S1x512x2048.size a + S1x512x2048.size a := by
  show i ∈ ((View.whole main_v3_0).slice (win3_3.rect t)).set ↔ _
  rw [View.set_slice_whole, Rect.mem_set_unit]
  exact Iff.rfl

theorem mem_blk_ctx (t : Fin cfg3.N) (i : S16x2048x64.Idx) :
    i ∈ ((cfg3.win 4).blk t).view.set ↔ ∀ a : Fin 3, win3_4.index t a * S1x512x64.size a ≤ (i a).val ∧ (i a).val < win3_4.index t a * S1x512x64.size a + S1x512x64.size a := by
  show i ∈ ((View.whole main_v3_1).slice (win3_4.rect t)).set ↔ _
  rw [View.set_slice_whole, Rect.mem_set_unit]
  exact Iff.rfl

theorem cover_attn (i : S16x2048x2048.Idx) : ∃ t : Fin cfg3.N, (cfg3.win 3).flush t = true ∧ i ∈ ((cfg3.win 3).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win3_3.index t (0 : Fin 3) = (i 0).val := congrFun ht 0
  have q1 : win3_3.index t (1 : Fin 3) = (i 1).val / 512 := congrFun ht 1
  have q2 : win3_3.index t (2 : Fin 3) = 0 := congrFun ht 2
  refine ⟨t, flush3_3 t, ?_⟩
  rw [mem_blk_attn]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 512 ≤ (i 1).val ∧ (i 1).val < win3_3.index t (1 : Fin 3) * 512 + 512; omega
  | ⟨2, _⟩ => show win3_3.index t (2 : Fin 3) * 2048 ≤ (i 2).val ∧ (i 2).val < win3_3.index t (2 : Fin 3) * 2048 + 2048; omega

theorem cover_ctx (i : S16x2048x64.Idx) : ∃ t : Fin cfg3.N, (cfg3.win 4).flush t = true ∧ i ∈ ((cfg3.win 4).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win3_3.index t (0 : Fin 3) = (i 0).val := congrFun ht 0
  have q1 : win3_3.index t (1 : Fin 3) = (i 1).val / 512 := congrFun ht 1
  obtain ⟨e00, e01, e02, e10, e11, e12, e20, e21, e22, e40, e41, e42, b0, b1, b2⟩ := idx_facts t
  refine ⟨t, flush3_4 t, ?_⟩
  rw [mem_blk_ctx]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 512 ≤ (i 1).val ∧ (i 1).val < win3_4.index t (1 : Fin 3) * 512 + 512; omega
  | ⟨2, _⟩ => show win3_4.index t (2 : Fin 3) * 64 ≤ (i 2).val ∧ (i 2).val < win3_4.index t (2 : Fin 3) * 64 + 64; omega

/-! ## The arrays after the launch -/

theorem final_attn (c : Dev nD) : (dat3 V c).arrAt 3 cfg3.N = Cert.Mha.attn (V c main_v0) (V c main_v1) :=
  (dat3 V c).arrAt_eq_of_cover 3 _ (fun t _ => flushed_attn V c t) cover_attn

theorem final_ctx (c : Dev nD) : (dat3 V c).arrAt 4 cfg3.N = Cert.Mha.ctx (V c main_v0) (V c main_v1) (V c main_v2) :=
  (dat3 V c).arrAt_eq_of_cover 4 _ (fun t _ => flushed_ctx V c t) cover_ctx

end Cert.KernelIdeal.AttnValue

end
-- ==== Proof.MergeBlock.lean ====
/-
  The last launch's arithmetic at one entry of its output block.  The body takes a head-major block of the
  context, X(h, r, d) with sixteen heads, 512 rows and sixty-four lanes, swaps the first two axes and flattens
  the last two, so that column k of row r holds head k / 64, lane k % 64; it multiplies that 512 x 1024 matrix
  by the weight into a zero accumulator and adds the bias along every row.  Entry (r, j) of the result is
  therefore  sum over k of X(k / 64, r, k % 64) * w(k, j),  plus b(j).
-/
import proofs.«120498_j67860483277320_2_alg».proof.Proof.Gen.KernelIdeal.Skeleton
import proofs.«120498_j67860483277320_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.MergeValue

open Cert.KernelIdeal Cert.KernelIdeal.Gen Idealize.ShloMosaic Idealize.ShloMosaic.ValueIdx
open Cert.Mha (headOf laneOf)

/-- The block with its first two axes swapped and its last two flattened, read at row `r`, column `k`: the
    block at head `k / 64`, row `r`, lane `k % 64` (both sides sit at row-major position 1024 r + k of the
    flattened matrix). -/
theorem merged_apply (x0 : FVec Ideal S16x512x64 .bf16) (r : Fin 512) (k : Fin 1024) :
    shapeCast S512x1024
        (transpose S512x16x64 [1, 0, 2] (shapeCast S16x512x64 x0 shapeCasts_S16x512x64_S16x512x64)
          transposes_S16x512x64_p1_0_2_S512x16x64)
        shapeCasts_S512x16x64_S512x1024 (ix2 r k)
      = x0 (ix3 (headOf k) r (laneOf k)) := by
  rw [shapeCast_apply _ shapeCasts_S512x16x64_S512x1024 (ix2 r k) (ix3 r (headOf k) (laneOf k)) (by
    rw [Shape.rowMajor_val_three, Shape.rowMajor_val_two]
    show (r.val * 16 + k.val / 64) * 64 + k.val % 64 = r.val * 1024 + k.val
    omega)]
  rw [transpose_apply [1, 0, 2] _ transposes_S16x512x64_p1_0_2_S512x16x64 (ix3 r (headOf k) (laneOf k))
    (ix3 (headOf k) r (laneOf k)) (fun b => match b with | ⟨0, _⟩ => rfl | ⟨1, _⟩ => rfl | ⟨2, _⟩ => rfl)]
  rw [shapeCast_self]

/-- The bias, given a unit leading axis and repeated along the 512 rows, read at `(r, j)`: the bias at `j`. -/
theorem bias_apply (x2 : FVec Ideal S1024 .f32) (r : Fin 512) (j : Fin 1024) :
    broadcastTo S512x1024 (shapeCast S1x1024 x2 shapeCasts_S1024_S1x1024) broadcasts_S1x1024_S512x1024 (ix2 r j)
      = x2 (ix1 j) := by
  rw [broadcastTo_1b_ab_apply, shapeCast_a_1a_apply]

/-! ## The matrix product at an entry

The contraction of the product runs over ONE axis, of length 1024: the left operand's columns against the right
operand's rows.  The four lemmas below read the operands' indices at an output entry and a contraction index. -/

theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem lhs_col (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_row (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The product of a 512 x 1024 matrix with a 1024 x 1024 one into the zero accumulator, read at `(r, j)`: the
    sum over the one contracted axis. -/
theorem matmul_apply (a : FVec Ideal S512x1024 .bf16) (w : FVec Ideal S1024x1024 .bf16) (r : Fin 512) (j : Fin 1024) :
    matmul dot_S512x1024_S1024x1024_S512x1024_1_0_0_1_n_n none a w (constant (F := Ideal) S512x1024 .f32 0x00000000#32) (ix2 r j)
      = ∑ k : Fin 1024, a (ix2 r k) * w (ix2 k j) := by
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r j) ((contrEquiv1 dot_S512x1024_S1024x1024_S512x1024_1_0_0_1_n_n 1024 rfl rfl).symm k) = ix2 r k :=
    funext fun a => Fin.ext (by
      match a with
      | ⟨0, _⟩ => exact lhs_row _ _
      | ⟨1, _⟩ => exact (lhs_col _ _).trans hk)
  have er : dot_S512x1024_S1024x1024_S512x1024_1_0_0_1_n_n.rhsIdx (ix2 r j) ((contrEquiv1 dot_S512x1024_S1024x1024_S512x1024_1_0_0_1_n_n 1024 rfl rfl).symm k) = ix2 k j :=
    funext fun a => Fin.ext (by
      match a with
      | ⟨0, _⟩ => exact (rhs_row _ _).trans hk
      | ⟨1, _⟩ => exact rhs_col _ _)
  rw [el, er]

/-- THE BODY'S RESULT AT AN ENTRY: row `r`, column `j` of the stored block is the merged row of the context block
    against column `j` of the weight, plus the bias at `j`. -/
theorem pay_apply (x0 : Vec Ideal S16x512x64 .bf16) (x1 : Vec Ideal S1024x1024 .f32) (x2 : Vec Ideal S1024 .f32)
    (r : Fin 512) (j : Fin 1024) :
    k4_pay1 (F := Ideal) x0 x1 x2 (ix2 r j)
      = (∑ k : Fin 1024, x0 (ix3 (headOf k) r (laneOf k)) * x1 (ix2 k j)) + x2 (ix1 j) := by
  unfold k4_pay1
  dsimp only
  rw [addf_apply, matmul_apply, bias_apply]
  refine congrArg (· + x2 (ix1 j)) (Finset.sum_congr rfl fun k _ => ?_)
  rw [merged_apply, truncf_apply]

end Cert.KernelIdeal.MergeValue

end
-- ==== Proof.MergeArr.lean ====
/-
  The last launch's output array.  Its grid has four points; point t takes rows 512 t .. 512 t + 511 of every head
  of the context (a block of sixteen heads, 512 rows, sixty-four lanes), the whole weight and the whole bias, and
  writes rows 512 t .. 512 t + 511 of the output.  By the body's arithmetic at an entry, what point t writes back
  is block t of ONE function of the three arrays: the context with head h, lane d put back in column 64 h + d,
  times the weight, plus the bias.  The four blocks tile the 2048 rows (row n is in block n / 512), so the array
  ends holding that function.
-/
import proofs.«120498_j67860483277320_2_alg».proof.Proof.Gen.KernelIdeal.Frame
import proofs.«120498_j67860483277320_2_alg».proof.Proof.MergeBlock
import Idealize.ShloMosaic.Lib.Pipeline.Value

set_option maxRecDepth 16384

noncomputable section

namespace Cert.KernelIdeal.MergeValue

open Cert.KernelIdeal Cert.KernelIdeal.Gen Idealize.ShloMosaic Idealize.ShloMosaic.TcCoe Idealize.SL.Sem
open Idealize.ShloMosaic.ValueIdx
open Idealize.ShloMosaic.Pipeline (Dat)
open Cert.Mha (headOf laneOf)

variable (V : (c : Dev nD) → (b : Ref sig .tc) → Buf (Elt Ideal) ((c : Thread nD τ).loc b))

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The four index maps at a grid point, decided over the four points: the context's block moves along the row
    axis with the point, the weight and the bias stay, the output's block moves along its rows with the point. -/
theorem idx_facts : ∀ t : Fin cfg4.N,
    win4_0.index t (0 : Fin 3) = 0 ∧ win4_0.index t (1 : Fin 3) = t.val ∧ win4_0.index t (2 : Fin 3) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- The context's block at point `t`: entry `(h, r, d)` is the array at `(h, 512 t + r, d)`. -/
theorem ctx_blk_apply (c : Dev nD) (t : Fin cfg4.N) (x : S16x512x64.Idx) (k : S16x2048x64.Idx)
    (hk0 : (k 0).val = (x 0).val) (hk1 : (k 1).val = 512 * t.val + (x 1).val) (hk2 : (k 2).val = (x 2).val) :
    (iblk4 V c 0 t : S16x512x64.Idx → EReal) x = (V c main_v3_1 : S16x2048x64.Idx → EReal) k := by
  obtain ⟨e0, e1, e2, -⟩ := idx_facts t
  unfold iblk4
  rw [View.read_apply]
  show V c main_v3_1 _ = V c main_v3_1 _
  congr 1
  funext a
  apply Fin.ext
  match a with
  | ⟨0, _⟩ => show win4_0.index t 0 * 16 + 1 * (x 0).val = (k 0).val; rw [e0, hk0]; omega
  | ⟨1, _⟩ => show win4_0.index t 1 * 512 + 1 * (x 1).val = (k 1).val; rw [e1, hk1]; omega
  | ⟨2, _⟩ => show win4_0.index t 2 * 64 + 1 * (x 2).val = (k 2).val; rw [e2, hk2]; omega

/-- The weight's block at any point is the weight. -/
theorem weight_blk_apply (c : Dev nD) (t : Fin cfg4.N) (x : S1024x1024.Idx) :
    (iblk4 V c 1 t : S1024x1024.Idx → EReal) x = (V c main_arg9 : S1024x1024.Idx → EReal) x := by
  obtain ⟨-, -, -, e3, e4, -⟩ := idx_facts t
  unfold iblk4
  rw [View.read_apply]
  show V c main_arg9 _ = V c main_arg9 _
  congr 1
  funext a
  apply Fin.ext
  match a with
  | ⟨0, _⟩ => show win4_1.index t 0 * 1024 + 1 * (x 0).val = (x 0).val; rw [e3]; omega
  | ⟨1, _⟩ => show win4_1.index t 1 * 1024 + 1 * (x 1).val = (x 1).val; rw [e4]; omega

/-- The bias's block at any point is the bias. -/
theorem bias_blk_apply (c : Dev nD) (t : Fin cfg4.N) (x : S1024.Idx) :
    (iblk4 V c 2 t : S1024.Idx → EReal) x = (V c main_arg10 : S1024.Idx → EReal) x := by
  obtain ⟨-, -, -, -, -, e5, -⟩ := idx_facts t
  unfold iblk4
  rw [View.read_apply]
  show V c main_arg10 _ = V c main_arg10 _
  congr 1
  funext a
  apply Fin.ext
  match a with
  | ⟨0, _⟩ => show win4_2.index t 0 * 1024 + 1 * (x 0).val = (x 0).val; rw [e5]; omega

/-- The body's result at an entry given by a block index of the output. -/
theorem pay_at (x0 : Vec Ideal S16x512x64 .bf16) (x1 : Vec Ideal S1024x1024 .f32) (x2 : Vec Ideal S1024 .f32)
    (y : S512x1024.Idx) :
    k4_pay1 (F := Ideal) x0 x1 x2 y
      = (∑ k : Fin 1024, x0 (ix3 (headOf k) ⟨(y 0).val, idx2_lt0 y⟩ (laneOf k)) * x1 (ix2 k ⟨(y 1).val, idx2_lt1 y⟩))
        + x2 (ix1 ⟨(y 1).val, idx2_lt1 y⟩) := by
  obtain ⟨r, j, rfl⟩ : ∃ (r : Fin 512) (j : Fin 1024), y = ix2 r j := ⟨y 0, y 1, eq_ix2 y⟩
  exact pay_apply x0 x1 x2 r j

/-- WHAT POINT `t` WRITES BACK is block `t` of the merged affine map of the three arrays as the launch finds them. -/
theorem flushed_eq (c : Dev nD) (t : Fin cfg4.N) :
    (dat4 (F := Ideal) V c).flushed 3 t
      = ((cfg4.win 3).blk t).view.read (Elt Ideal) (Cert.Mha.out (V c main_v3_1) (V c main_arg9) (V c main_arg10)) := by
  show (cfg4.win 3).cut (grid4.coords t) ((dat4 V c).after 3 t) = _
  rw [after4_3]
  unfold out4_3
  rw [View.canon_unit_zero zeros2]
  simp only [View.ld_unit_zero (S := S16x512x64) zeros3, View.ld_unit_zero (S := S1024x1024) zeros2,
    View.ld_unit_zero (S := S1024) zeros1]
  obtain ⟨-, -, -, -, -, -, e6, e7⟩ := idx_facts t
  funext y
  have h0 : (y 0).val < 512 := (y 0).isLt
  have h1 : (y 1).val < 1024 := (y 1).isLt
  rw [View.read_apply]
  refine (pay_at (iblk4 V c 0 t) (iblk4 V c 1 t) (iblk4 V c 2 t) _).trans ?_
  unfold Cert.Mha.out Cert.Mha.outAt
  refine congrArg₂ (· + ·) (Finset.sum_congr rfl fun k _ => congrArg₂ (· * ·) ?_ ?_) ?_
  · refine ctx_blk_apply V c t _ _ rfl ?_ rfl
    show win4_3.index t 0 * 512 + 1 * (y 0).val = 512 * t.val + (y 0).val
    rw [e6]; omega
  · refine (weight_blk_apply V c t _).trans (congrArg _ (funext fun a => Fin.ext ?_))
    match a with
    | ⟨0, _⟩ => rfl
    | ⟨1, _⟩ => show (y 1).val = win4_3.index t 1 * 1024 + 1 * (y 1).val; rw [e7]; omega
  · refine (bias_blk_apply V c t _).trans (congrArg _ (funext fun a => Fin.ext ?_))
    match a with
    | ⟨0, _⟩ => show (y 1).val = win4_3.index t 1 * 1024 + 1 * (y 1).val; rw [e7]; omega

/-- An index of the output is in point `t`'s block iff each coordinate is in the block's range on its axis. -/
theorem mem_blk (t : Fin cfg4.N) (i : S2048x1024.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole main_v4).slice (win4_3.rect t)).set ↔ _
  rw [View.set_slice_whole, Rect.mem_set_unit]
  exact Iff.rfl

/-- Every index of the output is in some point's block: row `n` is in the block of point `n / 512`. -/
theorem cover (i : S2048x1024.Idx) :
    ∃ t : Fin cfg4.N, (cfg4.win 3).flush t = true ∧ i ∈ ((cfg4.win 3).blk t).view.set := by
  have hi0 : (i 0).val < 2048 := (i 0).isLt
  have hi1 : (i 1).val < 1024 := (i 1).isLt
  have hN : cfg4.N = 4 := N_4
  obtain ⟨t, ht⟩ : ∃ t : Fin cfg4.N, t.val = (i 0).val / 512 := ⟨⟨(i 0).val / 512, by rw [hN]; omega⟩, rfl⟩
  obtain ⟨-, -, -, -, -, -, e6, e7⟩ := idx_facts t
  refine ⟨t, flush4_3 t, ?_⟩
  rw [mem_blk]
  intro a
  match a with
  | ⟨0, _⟩ =>
    show win4_3.index t 0 * 512 ≤ (i 0).val ∧ (i 0).val < win4_3.index t 0 * 512 + 512
    rw [e6, ht]; omega
  | ⟨1, _⟩ =>
    show win4_3.index t 1 * 1024 ≤ (i 1).val ∧ (i 1).val < win4_3.index t 1 * 1024 + 1024
    rw [e7]; omega

/-- THE OUTPUT ARRAY after the launch: the merged affine map of the context, the weight and the bias. -/
theorem final4 (V : (c : Dev nD) → (b : Ref sig .tc) → Buf (Elt Ideal) ((c : Thread nD τ).loc b)) (c : Dev nD) :
    (dat4 (F := Ideal) V c).arrAt 3 cfg4.N = Cert.Mha.out (V c main_v3_1) (V c main_arg9) (V c main_arg10) :=
  (dat4 (F := Ideal) V c).arrAt_eq_of_cover 3 (Cert.Mha.out (V c main_v3_1) (V c main_arg9) (V c main_arg10))
    (fun t _ => flushed_eq V c t) cover

end Cert.KernelIdeal.MergeValue

end
-- ==== Proof.RefProj.lean ====
/-
  The three head-major projections of the reference, read at an index.  Each is a matrix product plus a broadcast
  bias, reshaped from [2048, 1024] to [2048, 16, 64] and transposed to [16, 2048, 64]: entry (h, n, d) of the result is
  entry (n, 64h + d) of the affine map, because the row-major position of (n, h, d) in the reshaped array is
  n · 1024 + 64h + d.
-/
import proofs.«120498_j67860483277320_2_alg».proof.Proof.Gen.ReferenceIdeal.Read
import proofs.«120498_j67860483277320_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The projected queries at head `h`, token `n`, lane `d`. -/
theorem projQ_at (x : (⟨S2048x1024, .f32⟩ : BufTy).Contents (Elt Ideal)) (w : (⟨S1024x1024, .f32⟩ : BufTy).Contents (Elt Ideal)) (b : (⟨S1024, .f32⟩ : BufTy).Contents (Elt Ideal))
    (h : Fin 16) (n : Fin 2048) (d : Fin 64) :
    val_main_v5 (F := Ideal) x w b (ix3 h n d) = Cert.Mha.projAt x w b h n d := by
  have e : idx_main_v4 (idx_main_v5 (ix3 h n d)) = ix2 n (Cert.Mha.col h d) := funext fun a => Fin.ext (by
    match a with
    | ⟨0, _⟩ => show ((n.val * 16 + h.val) * 64 + d.val) / 1024 = n.val; omega
    | ⟨1, _⟩ => show ((n.val * 16 + h.val) * 64 + d.val) % 1024 = 64 * h.val + d.val; omega)
  have el : ∀ k : Fin 1024, lidx_main_v0 (ix2 n (Cert.Mha.col h d)) k = ix2 n k := fun k => funext fun a => Fin.ext (by
    match a with | ⟨0, _⟩ => rfl | ⟨1, _⟩ => rfl)
  have er : ∀ k : Fin 1024, ridx_main_v0 (ix2 n (Cert.Mha.col h d)) k = ix2 k (Cert.Mha.col h d) := fun k => funext fun a => Fin.ext (by
    match a with | ⟨0, _⟩ => rfl | ⟨1, _⟩ => rfl)
  have eb : idx_main_v1 (idx_main_v2 (ix2 n (Cert.Mha.col h d))) = ix1 (Cert.Mha.col h d) := funext fun a => Fin.ext (by
    match a with | ⟨0, _⟩ => rfl)
  rw [val_main_v5_apply, val_main_v4_apply, e, val_main_v3_apply, val_main_v0_apply, val_main_v2_apply,
    val_main_v1_apply, eb]
  simp only [el, er]
  rfl

theorem projQ_eq (x : (⟨S2048x1024, .f32⟩ : BufTy).Contents (Elt Ideal)) (w : (⟨S1024x1024, .f32⟩ : BufTy).Contents (Elt Ideal)) (b : (⟨S1024, .f32⟩ : BufTy).Contents (Elt Ideal)) :
    val_main_v5 (F := Ideal) x w b = Cert.Mha.proj x w b := by
  funext i
  obtain ⟨h, n, d, rfl⟩ : ∃ (h : Fin 16) (n : Fin 2048) (d : Fin 64), i = ix3 h n d := ⟨i 0, i 1, i 2, eq_ix3 i⟩
  exact projQ_at x w b h n d

/-- The projected keys at head `h`, token `n`, lane `d`. -/
theorem projK_at (x : (⟨S2048x1024, .f32⟩ : BufTy).Contents (Elt Ideal)) (w : (⟨S1024x1024, .f32⟩ : BufTy).Contents (Elt Ideal)) (b : (⟨S1024, .f32⟩ : BufTy).Contents (Elt Ideal))
    (h : Fin 16) (n : Fin 2048) (d : Fin 64) :
    val_main_v11 (F := Ideal) x w b (ix3 h n d) = Cert.Mha.projAt x w b h n d := by
  have e : idx_main_v10 (idx_main_v11 (ix3 h n d)) = ix2 n (Cert.Mha.col h d) := funext fun a => Fin.ext (by
    match a with
    | ⟨0, _⟩ => show ((n.val * 16 + h.val) * 64 + d.val) / 1024 = n.val; omega
    | ⟨1, _⟩ => show ((n.val * 16 + h.val) * 64 + d.val) % 1024 = 64 * h.val + d.val; omega)
  have el : ∀ k : Fin 1024, lidx_main_v6 (ix2 n (Cert.Mha.col h d)) k = ix2 n k := fun k => funext fun a => Fin.ext (by
    match a with | ⟨0, _⟩ => rfl | ⟨1, _⟩ => rfl)
  have er : ∀ k : Fin 1024, ridx_main_v6 (ix2 n (Cert.Mha.col h d)) k = ix2 k (Cert.Mha.col h d) := fun k => funext fun a => Fin.ext (by
    match a with | ⟨0, _⟩ => rfl | ⟨1, _⟩ => rfl)
  have eb : idx_main_v7 (idx_main_v8 (ix2 n (Cert.Mha.col h d))) = ix1 (Cert.Mha.col h d) := funext fun a => Fin.ext (by
    match a with | ⟨0, _⟩ => rfl)
  rw [val_main_v11_apply, val_main_v10_apply, e, val_main_v9_apply, val_main_v6_apply, val_main_v8_apply,
    val_main_v7_apply, eb]
  simp only [el, er]
  rfl

theorem projK_eq (x : (⟨S2048x1024, .f32⟩ : BufTy).Contents (Elt Ideal)) (w : (⟨S1024x1024, .f32⟩ : BufTy).Contents (Elt Ideal)) (b : (⟨S1024, .f32⟩ : BufTy).Contents (Elt Ideal)) :
    val_main_v11 (F := Ideal) x w b = Cert.Mha.proj x w b := by
  funext i
  obtain ⟨h, n, d, rfl⟩ : ∃ (h : Fin 16) (n : Fin 2048) (d : Fin 64), i = ix3 h n d := ⟨i 0, i 1, i 2, eq_ix3 i⟩
  exact projK_at x w b h n d

/-- The projected values at head `h`, token `n`, lane `d`. -/
theorem projV_at (x : (⟨S2048x1024, .f32⟩ : BufTy).Contents (Elt Ideal)) (w : (⟨S1024x1024, .f32⟩ : BufTy).Contents (Elt Ideal)) (b : (⟨S1024, .f32⟩ : BufTy).Contents (Elt Ideal))
    (h : Fin 16) (n : Fin 2048) (d : Fin 64) :
    val_main_v17 (F := Ideal) x w b (ix3 h n d) = Cert.Mha.projAt x w b h n d := by
  have e : idx_main_v16 (idx_main_v17 (ix3 h n d)) = ix2 n (Cert.Mha.col h d) := funext fun a => Fin.ext (by
    match a with
    | ⟨0, _⟩ => show ((n.val * 16 + h.val) * 64 + d.val) / 1024 = n.val; omega
    | ⟨1, _⟩ => show ((n.val * 16 + h.val) * 64 + d.val) % 1024 = 64 * h.val + d.val; omega)
  have el : ∀ k : Fin 1024, lidx_main_v12 (ix2 n (Cert.Mha.col h d)) k = ix2 n k := fun k => funext fun a => Fin.ext (by
    match a with | ⟨0, _⟩ => rfl | ⟨1, _⟩ => rfl)
  have er : ∀ k : Fin 1024, ridx_main_v12 (ix2 n (Cert.Mha.col h d)) k = ix2 k (Cert.Mha.col h d) := fun k => funext fun a => Fin.ext (by
    match a with | ⟨0, _⟩ => rfl | ⟨1, _⟩ => rfl)
  have eb : idx_main_v13 (idx_main_v14 (ix2 n (Cert.Mha.col h d))) = ix1 (Cert.Mha.col h d) := funext fun a => Fin.ext (by
    match a with | ⟨0, _⟩ => rfl)
  rw [val_main_v17_apply, val_main_v16_apply, e, val_main_v15_apply, val_main_v12_apply, val_main_v14_apply,
    val_main_v13_apply, eb]
  simp only [el, er]
  rfl

theorem projV_eq (x : (⟨S2048x1024, .f32⟩ : BufTy).Contents (Elt Ideal)) (w : (⟨S1024x1024, .f32⟩ : BufTy).Contents (Elt Ideal)) (b : (⟨S1024, .f32⟩ : BufTy).Contents (Elt Ideal)) :
    val_main_v17 (F := Ideal) x w b = Cert.Mha.proj x w b := by
  funext i
  obtain ⟨h, n, d, rfl⟩ : ∃ (h : Fin 16) (n : Fin 2048) (d : Fin 64), i = ix3 h n d := ⟨i 0, i 1, i 2, eq_ix3 i⟩
  exact projV_at x w b h n d

end Cert.ReferenceIdeal.RefValue

end
-- ==== Proof.RefScores.lean ====
/-
  The reference's scores and their row maxima, read at an index.  The reference divides every query lane by the
  literal 8.0 and then contracts with the key lanes; division by the real eight is multiplication by one eighth on
  every extended real, and a finite nonnegative factor moves out of the contraction, so this is the scaled score.  The
  row maximum is the fold of max over the key tokens from minus infinity; taking the maximum with minus infinity once
  more changes nothing.
-/
import proofs.«120498_j67860483277320_2_alg».proof.Proof.Gen.ReferenceIdeal.Read
import proofs.«120498_j67860483277320_2_alg».proof.Proof.Spec
import proofs.«120498_j67860483277320_2_alg».proof.Proof.Consts
import proofs.«120498_j67860483277320_2_alg».proof.Proof.RefProj

noncomputable section

namespace Cert.ReferenceIdeal.RefValue

open Cert.ReferenceIdeal Cert.ReferenceIdeal.Gen Cert.ReferenceIdeal.Read Idealize.ShloMosaic Idealize.ShloMosaic.ValueIdx

/-- The score of query token `n` against key token `m` in head `h`. -/
theorem score_at (x0 x1 : (⟨S2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (h : Fin 16) (n m : Fin 2048) :
    val_main_v20 (F := Ideal) x0 x1 x3 x4 x5 x6 (ix3 h n m) = Cert.Mha.scoreAt (Cert.Mha.proj x0 x3 x4) (Cert.Mha.proj x1 x5 x6) h n m := by
  have el : ∀ k : Fin 64, lidx_main_v20 (ix3 h n m) k = ix3 h n k := fun k => funext fun a => Fin.ext (by
    match a with | ⟨0, _⟩ => rfl | ⟨1, _⟩ => rfl | ⟨2, _⟩ => rfl)
  have er : ∀ k : Fin 64, ridx_main_v20 (ix3 h n m) k = ix3 h m k := fun k => funext fun a => Fin.ext (by
    match a with | ⟨0, _⟩ => rfl | ⟨1, _⟩ => rfl | ⟨2, _⟩ => rfl)
  have h8 : (8 : ℝ) ≠ 0 := by norm_num
  rw [val_main_v20_apply]
  simp only [el, er, val_main_v19_apply, val_main_v18_apply, val_main_cst_apply, projQ_eq, projK_eq,
    Ideal.hostDivf_def, Ideal.ofBits_def, Cert.Mha.Consts.ofBits_eight, Ideal.div_coe h8]
  exact Cert.Mha.score_of_scaled_lanes (fun d => Cert.Mha.proj x0 x3 x4 (ix3 h n d))
    (fun d => Cert.Mha.proj x1 x5 x6 (ix3 h m d))

/-- The reduction over the key axis is the fold of max from minus infinity over the key tokens. -/
theorem reduceMax_at (x0 x1 : (⟨S2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (h : Fin 16) (n : Fin 2048) :
    val_main_v21 (F := Ideal) x0 x1 x3 x4 x5 x6 (ix2 h n) = Cert.Mha.rowMax (Cert.Mha.proj x0 x3 x4) (Cert.Mha.proj x1 x5 x6) h n := by
  have hR : S16x2048x2048.Reduces [2] S16x2048 := by decide
  have hl : ∀ m : Fin 2048, hR.lift (ix2 h n) m = ix3 h n m := fun m => funext fun a => Fin.ext (by
    match a with | ⟨0, _⟩ => rfl | ⟨1, _⟩ => rfl | ⟨2, _⟩ => rfl)
  have hf : (val_main_v20 (F := Ideal) x0 x1 x3 x4 x5 x6 ∘ hR.lift (ix2 h n))
      = fun m : Fin 2048 => Cert.Mha.scoreAt (Cert.Mha.proj x0 x3 x4) (Cert.Mha.proj x1 x5 x6) h n m := funext fun (m : Fin 2048) => by
    show val_main_v20 (F := Ideal) x0 x1 x3 x4 x5 x6 (hR.lift (ix2 h n) m) = _
    rw [hl m]
    exact score_at x0 x1 x3 x4 x5 x6 h n m
  unfold val_main_v21
  rw [Host.reduce_eq_fold_single (FloatOps.maximumf (F := Ideal) (φ := .f32)) _ _ _ hR h_S_ (ix2 h n), hf]
  rfl

/-- The row maximum as the reference uses it: the maximum of minus infinity and the reduction. -/
theorem rowMax_at (x0 x1 : (⟨S2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (h : Fin 16) (n : Fin 2048) :
    val_main_v23 (F := Ideal) x0 x1 x3 x4 x5 x6 (ix2 h n) = Cert.Mha.rowMax (Cert.Mha.proj x0 x3 x4) (Cert.Mha.proj x1 x5 x6) h n := by
  rw [val_main_v23_apply, val_main_v22_apply, val_main_cst_1_apply, reduceMax_at, Ideal.maximumf_def, Ideal.ofBits_def]
  exact max_eq_right ((Finset.le_fold_max _).mpr (Or.inl le_rfl))

end Cert.ReferenceIdeal.RefValue

end
-- ==== Proof.RefAttn.lean ====
/-
  The reference's attention probabilities, read at an index: the exponential of each score minus its row's maximum,
  the row sums of those exponentials (a float sum from the zero word, which contributes nothing), and their quotient.
  The row maximum and the row sum reach the [16, 2048, 2048] array through two broadcasts that repeat entry (h, n)
  along the key axis.
-/
import proofs.«120498_j67860483277320_2_alg».proof.Proof.Gen.ReferenceIdeal.Read
import proofs.«120498_j67860483277320_2_alg».proof.Proof.Spec
import proofs.«120498_j67860483277320_2_alg».proof.Proof.RefScores

noncomputable section

namespace Cert.ReferenceIdeal.RefValue

open Cert.ReferenceIdeal Cert.ReferenceIdeal.Gen Cert.ReferenceIdeal.Read Idealize.ShloMosaic Idealize.ShloMosaic.ValueIdx

/-- The exponential of a score minus its row's maximum. -/
theorem exp_at (x0 x1 : (⟨S2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (h : Fin 16) (n m : Fin 2048) :
    val_main_v27 (F := Ideal) x0 x1 x3 x4 x5 x6 (ix3 h n m) = Cert.Mha.expAt (Cert.Mha.proj x0 x3 x4) (Cert.Mha.proj x1 x5 x6) h n m := by
  have e : idx_main_v24 (idx_main_v25 (ix3 h n m)) = ix2 h n := funext fun a => Fin.ext (by
    match a with | ⟨0, _⟩ => rfl | ⟨1, _⟩ => rfl)
  rw [val_main_v27_apply, val_main_v26_apply, val_main_v25_apply, val_main_v24_apply, e, score_at, rowMax_at,
    Ideal.hostUnary_exp_def, Ideal.subf_def]
  rfl

/-- The sum of a row's exponentials. -/
theorem rowSum_at (x0 x1 : (⟨S2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (h : Fin 16) (n : Fin 2048) :
    val_main_v28 (F := Ideal) x0 x1 x3 x4 x5 x6 (ix2 h n) = Cert.Mha.rowSum (Cert.Mha.proj x0 x3 x4) (Cert.Mha.proj x1 x5 x6) h n := by
  have e : ∀ k : Fin 2048, idx_main_v28 (ix2 h n) k = ix3 h n k := fun k => funext fun a => Fin.ext (by
    match a with | ⟨0, _⟩ => rfl | ⟨1, _⟩ => rfl | ⟨2, _⟩ => rfl)
  rw [val_main_v28_apply, val_main_cst_2_apply, Ideal.ofBits_def, Ideal.ofBits_zero_f32, zero_add]
  simp only [e, exp_at]
  rfl

/-- The attention probability of key token `m` for query token `n` in head `h`. -/
theorem attn_at (x0 x1 : (⟨S2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (h : Fin 16) (n m : Fin 2048) :
    val_main_v31 (F := Ideal) x0 x1 x3 x4 x5 x6 (ix3 h n m) = Cert.Mha.attnAt (Cert.Mha.proj x0 x3 x4) (Cert.Mha.proj x1 x5 x6) h n m := by
  have e : idx_main_v29 (idx_main_v30 (ix3 h n m)) = ix2 h n := funext fun a => Fin.ext (by
    match a with | ⟨0, _⟩ => rfl | ⟨1, _⟩ => rfl)
  rw [val_main_v31_apply, val_main_v30_apply, val_main_v29_apply, e, exp_at, rowSum_at, Ideal.hostDivf_def]
  rfl

/-- The reference's attention array is the specification's, as a function of the projected queries and keys. -/
theorem attn_eq (x0 x1 : (⟨S2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) :
    val_main_v31 (F := Ideal) x0 x1 x3 x4 x5 x6 = Cert.Mha.attn (Cert.Mha.proj x0 x3 x4) (Cert.Mha.proj x1 x5 x6) := by
  funext i
  obtain ⟨h, n, m, rfl⟩ : ∃ (h : Fin 16) (n m : Fin 2048), i = ix3 h n m := ⟨i 0, i 1, i 2, eq_ix3 i⟩
  exact attn_at x0 x1 x3 x4 x5 x6 h n m

end Cert.ReferenceIdeal.RefValue

end
-- ==== Proof.RefOut.lean ====
/-
  The reference's output, read at an index: the context (attention probabilities against the projected values), its
  transpose back to token-major order and reshape from [2048, 16, 64] to [2048, 1024] — column k of the merged array
  is lane k mod 64 of head k div 64 — and the last affine map.
-/
import proofs.«120498_j67860483277320_2_alg».proof.Proof.Gen.ReferenceIdeal.Read
import proofs.«120498_j67860483277320_2_alg».proof.Proof.Spec
import proofs.«120498_j67860483277320_2_alg».proof.Proof.RefProj
import proofs.«120498_j67860483277320_2_alg».proof.Proof.RefAttn

noncomputable section

namespace Cert.ReferenceIdeal.RefValue

open Cert.ReferenceIdeal Cert.ReferenceIdeal.Gen Cert.ReferenceIdeal.Read Idealize.ShloMosaic Idealize.ShloMosaic.ValueIdx

/-- The context of token `n` in head `h`, lane `d`. -/
theorem ctx_at (x0 x1 x2 : (⟨S2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
    (h : Fin 16) (n : Fin 2048) (d : Fin 64) :
    val_main_v32 (F := Ideal) x0 x1 x2 x3 x4 x5 x6 x7 x8 (ix3 h n d) = Cert.Mha.ctxAt (Cert.Mha.proj x0 x3 x4) (Cert.Mha.proj x1 x5 x6) (Cert.Mha.proj x2 x7 x8) h n d := by
  have el : ∀ k : Fin 2048, lidx_main_v32 (ix3 h n d) k = ix3 h n k := fun k => funext fun a => Fin.ext (by
    match a with | ⟨0, _⟩ => rfl | ⟨1, _⟩ => rfl | ⟨2, _⟩ => rfl)
  have er : ∀ k : Fin 2048, ridx_main_v32 (ix3 h n d) k = ix3 h k d := fun k => funext fun a => Fin.ext (by
    match a with | ⟨0, _⟩ => rfl | ⟨1, _⟩ => rfl | ⟨2, _⟩ => rfl)
  rw [val_main_v32_apply]
  simp only [el, er, attn_at, projV_eq]
  rfl

/-- The merged context: column `k` of token `n` is lane `k mod 64` of head `k div 64`. -/
theorem merged_at (x0 x1 x2 : (⟨S2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))
    (n : Fin 2048) (k : Fin 1024) :
    val_main_v34 (F := Ideal) x0 x1 x2 x3 x4 x5 x6 x7 x8 (ix2 n k)
      = Cert.Mha.ctxAt (Cert.Mha.proj x0 x3 x4) (Cert.Mha.proj x1 x5 x6) (Cert.Mha.proj x2 x7 x8) (Cert.Mha.headOf k) n (Cert.Mha.laneOf k) := by
  have hn : n.val < 2048 := n.isLt
  have hk : k.val < 1024 := k.isLt
  have e : idx_main_v33 (idx_main_v34 (ix2 n k)) = ix3 (Cert.Mha.headOf k) n (Cert.Mha.laneOf k) := funext fun a => Fin.ext (by
    match a with
    | ⟨0, _⟩ => show (n.val * 1024 + k.val) / 64 % 16 = k.val / 64; omega
    | ⟨1, _⟩ => show (n.val * 1024 + k.val) / 1024 = n.val; omega
    | ⟨2, _⟩ => show (n.val * 1024 + k.val) % 64 = k.val % 64; omega)
  rw [val_main_v34_apply, val_main_v33_apply, e, ctx_at]

/-- One entry of the output: the merged context against column `j` of the last weight, plus the bias there. -/
theorem out_at (x0 x1 x2 : (⟨S2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (n : Fin 2048) (j : Fin 1024) :
    val_main_v38 (F := Ideal) x0 x1 x2 x3 x4 x5 x6 x7 x8 x9 x10 (ix2 n j)
      = Cert.Mha.outAt (Cert.Mha.ctx (Cert.Mha.proj x0 x3 x4) (Cert.Mha.proj x1 x5 x6) (Cert.Mha.proj x2 x7 x8)) x9 x10 n j := by
  have el : ∀ k : Fin 1024, lidx_main_v35 (ix2 n j) k = ix2 n k := fun k => funext fun a => Fin.ext (by
    match a with | ⟨0, _⟩ => rfl | ⟨1, _⟩ => rfl)
  have er : ∀ k : Fin 1024, ridx_main_v35 (ix2 n j) k = ix2 k j := fun k => funext fun a => Fin.ext (by
    match a with | ⟨0, _⟩ => rfl | ⟨1, _⟩ => rfl)
  have eb : idx_main_v36 (idx_main_v37 (ix2 n j)) = ix1 j := funext fun a => Fin.ext (by
    match a with | ⟨0, _⟩ => rfl)
  rw [val_main_v38_apply, val_main_v35_apply, val_main_v37_apply, val_main_v36_apply, eb]
  simp only [el, er, merged_at]
  rfl

/-- The reference's result is the specification's output, as a function of the three projections. -/
theorem out_eq (x0 x1 x2 : (⟨S2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) :
    val_main_v38 (F := Ideal) x0 x1 x2 x3 x4 x5 x6 x7 x8 x9 x10 = Cert.Mha.out (Cert.Mha.ctx (Cert.Mha.proj x0 x3 x4) (Cert.Mha.proj x1 x5 x6) (Cert.Mha.proj x2 x7 x8)) x9 x10 := by
  funext i
  obtain ⟨n, j, rfl⟩ : ∃ (n : Fin 2048) (j : Fin 1024), i = ix2 n j := ⟨i 0, i 1, eq_ix2 i⟩
  exact out_at x0 x1 x2 x3 x4 x5 x6 x7 x8 x9 x10 n j

end Cert.ReferenceIdeal.RefValue

end
-- ==== Proof.lean ====
/-
  Multi-head attention (2048 tokens, width 1024, sixteen heads of sixty-four lanes): the kernel's five launches
  against the plain reference, at the ideal instance, where floats are extended reals and every operation is exact.

  Both programs compute ONE function of the eleven argument arrays (Proof/Spec.lean).  Three launches project the
  query, key and value tokens and store each projection head-major, so entry (h, n, d) of a projection is
  Σ_k x(n, k) · w(k, 64h + d) + b(64h + d); the reference computes the same affine map on the whole array and reshapes
  and transposes it.  The attention launch, for one head and 512 query rows at a time, contracts query rows with all
  the head's key rows, multiplies by 1/8, and takes the softmax along each row (subtract the row's maximum,
  exponentiate, divide by the row's sum); it writes those probabilities out and their product with the head's value
  rows.  The reference divides the queries by 8 BEFORE contracting: that is the one algebraic difference, and
  multiplying by 1/8 moves through a finite sum of extended reals because 1/8 is finite and nonnegative, so no
  finiteness of the inputs is needed.  The reference's maximum with minus infinity after its row maximum changes
  nothing, the fold already starting there.  The last launch merges the heads back into columns 64h + d and applies
  the output affine map, 512 rows at a time; the reference transposes, reshapes and multiplies once.

  The kernel's side is read off its run launch by launch: each launch's write-backs tile its output arrays, and each
  written block is the corresponding block of the specification's function of the arrays the launch is entered with
  (Proof/ProjArr*.lean, Proof/AttnArr.lean, Proof/MergeArr.lean); no later launch overwrites what an earlier one left
  (Proof/Chain.lean).  The reference's side is read one host operation at a time (Proof/Ref*.lean).  The pass that
  idealizes the kernel rewrote nothing, so there is nothing to preserve beyond the program's own text.
-/
import proofs.«120498_j67860483277320_2_alg».proof.Defs
import proofs.«120498_j67860483277320_2_alg».proof.Proof.Gen.Kernel
import proofs.«120498_j67860483277320_2_alg».proof.Proof.Gen.Kernel.Skeleton
import proofs.«120498_j67860483277320_2_alg».proof.Proof.Gen.Kernel.Launch
import proofs.«120498_j67860483277320_2_alg».proof.Proof.Gen.Kernel.Points
import proofs.«120498_j67860483277320_2_alg».proof.Proof.Gen.Kernel.Frame
import proofs.«120498_j67860483277320_2_alg».proof.Proof.Gen.KernelIdeal
import proofs.«120498_j67860483277320_2_alg».proof.Proof.Gen.KernelIdeal.Skeleton
import proofs.«120498_j67860483277320_2_alg».proof.Proof.Gen.KernelIdeal.Launch
import proofs.«120498_j67860483277320_2_alg».proof.Proof.Gen.KernelIdeal.Points
import proofs.«120498_j67860483277320_2_alg».proof.Proof.Gen.KernelIdeal.Frame
import proofs.«120498_j67860483277320_2_alg».proof.Proof.Gen.ReferenceIdeal
import proofs.«120498_j67860483277320_2_alg».proof.Proof.Gen.ReferenceIdeal.Run
import proofs.«120498_j67860483277320_2_alg».proof.Proof.Gen.ReferenceIdeal.Read
import proofs.«120498_j67860483277320_2_alg».proof.Proof.Gen.Pre_finite_inputs
import proofs.«120498_j67860483277320_2_alg».proof.Proof.KernelRun
import proofs.«120498_j67860483277320_2_alg».proof.Proof.Chain
import proofs.«120498_j67860483277320_2_alg».proof.Proof.ProjArr0
import proofs.«120498_j67860483277320_2_alg».proof.Proof.ProjArr1
import proofs.«120498_j67860483277320_2_alg».proof.Proof.ProjArr2
import proofs.«120498_j67860483277320_2_alg».proof.Proof.AttnArr
import proofs.«120498_j67860483277320_2_alg».proof.Proof.MergeArr
import proofs.«120498_j67860483277320_2_alg».proof.Proof.RefAttn
import proofs.«120498_j67860483277320_2_alg».proof.Proof.RefOut
import Idealize.ShloMosaic.Adequacy
import Idealize.ShloMosaic.Init

noncomputable section

namespace Cert.Proof

open Idealize.ShloMosaic Idealize.ShloMosaic.TcCoe Idealize.SL.Sem

/-- What each of the five launches leaves in its output arrays. -/
theorem launches : Cert.KernelIdeal.Chain.Launches :=
  ⟨Cert.KernelIdeal.ProjValue.final0, Cert.KernelIdeal.ProjValue.final1, Cert.KernelIdeal.ProjValue.final2,
    Cert.KernelIdeal.AttnValue.final_attn, Cert.KernelIdeal.AttnValue.final_ctx, Cert.KernelIdeal.MergeValue.final4⟩

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the output at `out (ctx Q K V) Wo bo` and the probabilities at `attn Q K`, where Q, K, V
    are the three projections of the (agreeing) argument arrays. -/
theorem algebraic : Cert.algebraic_KernelIdeal_ReferenceIdeal := by
  intro m ρ m' ρ' _ hagree
  refine ⟨_, _, (θ_run Cert.KernelIdeal.defs _ _).mono (fun r h c =>
      ⟨(h c).1.trans (Cert.KernelIdeal.Chain.out_at5 m ρ launches c),
        (h c).2.1.trans (Cert.KernelIdeal.Chain.attn_at5 m ρ launches c), (h c).2.2⟩)
    (Cert.KernelIdeal.Run.run (F := Ideal) m ρ), ?_⟩
  refine (θ_run Cert.ReferenceIdeal.defs _ _).mono (fun r h c => ⟨?_, ?_, (h c).2.2⟩)
    (Cert.ReferenceIdeal.Value.run (F := Ideal) m' ρ')
  · obtain ⟨a0, a1, a2, a3, a4, a5, a6, a7, a8, a9, a10⟩ := hagree c
    rw [(h c).1, Cert.ReferenceIdeal.Read.val_main_v38_eq, Cert.ReferenceIdeal.RefValue.out_eq, a0, a1, a2, a3, a4, a5, a6, a7, a8, a9, a10]
  · obtain ⟨a0, a1, a2, a3, a4, a5, a6, a7, a8, a9, a10⟩ := hagree c
    rw [(h c).2.1, Cert.ReferenceIdeal.Read.val_main_v31_eq, Cert.ReferenceIdeal.RefValue.attn_eq, a0, a1, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
